-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128x32 .f32) (main_arg6 : FVec F S32 .f32) (main_arg7 : FVec F S128x32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x32 .f32) (main_arg6 : FVec F S32 .f32) (main_arg7 : FVec F S128x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S600000x128 : Shape := ⟨2, ![600000, 128]⟩
abbrev S1x128 : Shape := ⟨2, ![1, 128]⟩
abbrev S4000x128 : Shape := ⟨2, ![4000, 128]⟩
abbrev S4000x1 : Shape := ⟨2, ![4000, 1]⟩
abbrev S1x32 : Shape := ⟨2, ![1, 32]⟩
abbrev S100000x32 : Shape := ⟨2, ![100000, 32]⟩
abbrev S4000x32 : Shape := ⟨2, ![4000, 32]⟩

abbrev nBuf : Space → Nat
  | .hbm => 77
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000, .i32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S100000, .f32⟩
  | .hbm, ⟨37, _⟩ => ⟨S600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S600000x1, .i32⟩
  | .hbm, ⟨58, _⟩ => ⟨S100000x128, .f32⟩
  | .hbm, ⟨59, _⟩ => ⟨S1x128, .f32⟩
  | .hbm, ⟨60, _⟩ => ⟨S100000x128, .bf16⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .bf16⟩
  | .hbm, ⟨70, _⟩ => ⟨S600000x128, .f32⟩
  | .hbm, ⟨71, _⟩ => ⟨S_, .f32⟩
  | .hbm, ⟨72, _⟩ => ⟨S100000x128, .f32⟩
  | .hbm, ⟨73, _⟩ => ⟨S600000x1, .i32⟩
  | .hbm, ⟨74, _⟩ => ⟨S100000x128, .f32⟩
  | .hbm, ⟨75, _⟩ => ⟨S1x32, .f32⟩
  | .hbm, ⟨76, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x1, .f32⟩
  | .local _ .vmem, ⟨16, _⟩ => ⟨S4000x1, .f32⟩
  | .local _ .vmem, ⟨17, _⟩ => ⟨S128x32, .f32⟩
  | .local _ .vmem, ⟨18, _⟩ => ⟨S128x32, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1_0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  gather_S600000_S600000x1_S600000_n_0_n_n_0_1_1_wf : GatherDims.WF S600000 S600000x1 S600000 [] [0] [] [0] [] 1 ![1]
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x32_S4000x32_1_0_0_1_n_n_wf : DotDims.WF S4000x128 S128x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x32.size a ≤ S128x32.size a
  hwx1_4 : ∀ i : grid1.Coords, EltTy.bits .f32 = 32 ∨ (Rect.block (s := S128x32) S128x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S100000x32.size a
  hwx1_6 : ∀ i : grid1.Coords, EltTy.bits .f32 = 32 ∨ (Rect.block (s := S100000x32) S4000x32.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S600000_S600000x1_S600000_n_0_n_n_0_1_1 : GatherDims S600000 S600000x1 S600000 where
  offsetDims := []
  collapsedSliceDims := [0]
  operandBatchingDims := []
  startIndicesBatchingDims := []
  startIndexMap := [0]
  indexVectorDim := 1
  sliceSizes := ![1]
  wf := gather_S600000_S600000x1_S600000_n_0_n_n_0_1_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v50) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KRun.lean ====
/-
  The kernel's program run from the launch memory, with its result named.

  Every weakly fair execution of the program terminates without a fault; the argument arrays end as launched, and the
  result array ends holding what the chain of buffer contents through the program — host operations and the two
  launches in order — leaves in it after the second launch. The run is the one the frame certificate makes (the same
  segments, the same thread states), read at one more buffer.
-/
import proofs.«176871_j11081015624123_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with the result array named by the last boundary's contents. -/
theorem run_out : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- The result array after the second launch: what that launch's write-backs leave in it. -/
theorem out_eq (c : Dev nD) : W6 m ρ c (Proc.devRef .tc main_v52) = (dat1 (V5 m ρ) c).arrAt 6 cfg1.N :=
  W6_arr m ρ c 6

end Cert.KernelIdeal.Gen

end
-- ==== Proof.KHostDefs.lean ====
/-
  The host side of the kernel's program, as pure functions of the argument arrays.

  The edge list is a [2, E] integer array: row 0 holds each edge's source node, row 1 its destination node
  (E = 600000 edges, N = 100000 nodes). The program sorts the edges by destination (a stable argsort of row 1 carrying
  the positions 0 … E-1), re-reads both rows in that order, counts for every node the edges that arrive at it, takes the
  reciprocal of that count (of 1 for a node nothing arrives at), and for a table of node features sums, for every node,
  the feature rows of the sources of the edges arriving at it.
-/
import proofs.«176871_j11081015624123_2_alg».proof.KernelIdeal

noncomputable section

namespace Cert.KernelIdeal.HostSide

open Idealize.ShloMosaic Cert.KernelIdeal Cert.KernelIdeal.Facts₀

variable {F : FTy → Type} [FloatOps F] [Cert.KernelIdeal.Facts₀]

/-- Row 0 of the edge list: the source node of each edge. -/
def srcW (x1 : IVec S2x600000 32) : IVec S600000 32 :=
  shapeCast S600000 (extractStridedSlice S1x600000 ![0, 0] x1 slices_S2x600000_S1x600000_0_0) shapeCasts_S1x600000_S600000

/-- Row 1 of the edge list: the destination node of each edge. -/
def dstW (x1 : IVec S2x600000 32) : IVec S600000 32 :=
  shapeCast S600000 (extractStridedSlice S1x600000 ![1, 0] x1 slices_S2x600000_S1x600000_1_0) shapeCasts_S1x600000_S600000

/-- The positions 0 … E-1 carried through a stable sort of the destinations: entry k is the position of the edge that
    the sort puts at k. -/
def order (x1 : IVec S2x600000 32) : IVec S600000 32 :=
  (Host.sort2 S600000 0 comparator_i32_i32_d0 (dstW x1) (iotaInDim S600000 32 0)).2

/-- A position read as a Python index into an axis of extent E: a negative one counts from the end. -/
def wrapE (o : IVec S600000 32) : IVec S600000 32 :=
  select (cmpi .slt o (broadcastInDim S600000 ![] bcast_S_S600000 (constantI S_ 32 0#32)))
    (addi o (broadcastInDim S600000 ![] bcast_S_S600000 (constantI S_ 32 600000#32))) o

/-- A node word read as a Python index into an axis of extent N. -/
def wrapN (s : IVec S600000 32) : IVec S600000 32 :=
  select (cmpi .slt s (broadcastInDim S600000 ![] bcast_S_S600000 (constantI S_ 32 0#32)))
    (addi s (broadcastInDim S600000 ![] bcast_S_S600000 (constantI S_ 32 100000#32))) s

/-- The sources in sorted order. -/
def srcS (x1 : IVec S2x600000 32) : IVec S600000 32 :=
  Host.gather gather_S600000_S600000x1_S600000_n_0_n_n_0_1_1 (srcW x1)
    (broadcastInDim S600000x1 ![0] bcast_S600000_S600000x1_0 (wrapE (order x1)))

/-- The destinations in sorted order. -/
def dstS (x1 : IVec S2x600000 32) : IVec S600000 32 :=
  Host.gather gather_S600000_S600000x1_S600000_n_0_n_n_0_1_1 (dstW x1)
    (broadcastInDim S600000x1 ![0] bcast_S600000_S600000x1_0 (wrapE (order x1)))

/-- For every node, the number of edges that arrive at it. -/
def deg (x1 : IVec S2x600000 32) : FVec F S100000 .f32 :=
  Host.scatterAdd scatter_S100000_S600000x1_S600000_n_0_0_1
    (broadcastInDim S100000 ![] bcast_S_S100000 (constant S_ .f32 0x00000000#32))
    (broadcastInDim S600000x1 ![0] bcast_S600000_S600000x1_0 (dstS x1))
    (broadcastInDim S600000 ![] bcast_S_S600000 (constant S_ .f32 0x3F800000#32))

/-- For every node, one over the larger of that number and 1, as a column. -/
def inv (x1 : IVec S2x600000 32) : FVec F S100000x1 .f32 :=
  shapeCast S100000x1
    (Host.divf (broadcastInDim S100000 ![] bcast_S_S100000 (constant S_ .f32 0x3F800000#32))
      (maximumf (deg (F := F) x1) (broadcastInDim S100000 ![] bcast_S_S100000 (constant S_ .f32 0x3F800000#32))))
    shapeCasts_S100000_S100000x1

/-- The edge-by-edge feature rows read from a table (one row per edge, that of its source), in sorted order. -/
def rowsOf {φ : FTy} (h : FVec F S100000x128 φ) (x1 : IVec S2x600000 32) : FVec F S600000x128 φ :=
  Host.gather gather_S100000x128_S600000x1_S600000x128_1_0_n_n_0_1_1128 h
    (broadcastInDim S600000x1 ![0] bcast_S600000_S600000x1_0 (wrapN (srcS x1)))

/-- For every node, the sum of the given edge rows over the edges arriving at it. -/
def sumInto (u : FVec F S600000x128 .f32) (x1 : IVec S2x600000 32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (dstS x1)) u

/-- The first layer's neighbour sums: of the input features. -/
def agg1 (x0 : FVec F S100000x128 .f32) (x1 : IVec S2x600000 32) : FVec F S100000x128 .f32 :=
  sumInto (rowsOf x0 x1) x1

/-- The second layer's neighbour sums: of the first layer's output, stored in the narrow format and widened per edge. -/
def agg2 (h : FVec F S100000x128 .bf16) (x1 : IVec S2x600000 32) : FVec F S100000x128 .f32 :=
  sumInto (extf .f32 (rowsOf h x1) bitsLt_bf16_f32) x1

end Cert.KernelIdeal.HostSide

end
-- ==== Proof.KHost.lean ====
/-
  What the kernel's program holds in its buffers between its launches, read back through the host operations to the
  argument arrays: the source and destination rows of the edge list, the sorting order, both rows in sorted order, the
  reciprocal node degrees, the neighbour sums that enter each launch, and the two bias rows.
-/
import proofs.«176871_j11081015624123_2_alg».proof.Proof.Gen.KernelIdeal.Frame
import proofs.«176871_j11081015624123_2_alg».proof.Proof.KHostDefs
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.ShloMosaic.Tactic
open Idealize.SL Idealize.SL.Sem Cert.KernelIdeal Cert.KernelIdeal.Gen Cert.KernelIdeal.Facts₀

variable (m : (ℓ : Loc nD τ sig) → Buf (Elt Ideal) ℓ) (ρ : Dev nD → PrngReg)

/-! ## Before the sort -/

theorem W1_v1 (c : Dev nD) : W1 m ρ c (Proc.devRef .tc main_v1) = srcW (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstW (m ((c : Thread nD τ).loc main_arg1)) := by
  show StableHlo.after hostOps0 (W0 m ρ c) (Proc.devRef .tc main_v3) = _
  after_results
  rfl

theorem W1_arg (c : Dev nD) (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c : Thread nD τ).loc b) := by
  rcases hb with rfl | rfl | rfl | rfl | rfl | rfl | rfl <;>
  · show StableHlo.after hostOps0 (W0 m ρ c) _ = _
    after_results

/-! ## The sort -/

theorem W2_v4 (c : Dev nD) : W2 m ρ c (Proc.devRef .tc main_v4) = order (m ((c : Thread nD τ).loc main_arg1)) := by
  show StableHlo.after hostOps0_1 (W1 m ρ c) (Proc.devRef .tc main_v4) = _
  after_results
  rfl

theorem W2_v1 (c : Dev nD) : W2 m ρ c (Proc.devRef .tc main_v1) = srcW (m ((c : Thread nD τ).loc main_arg1)) := by
  show StableHlo.after hostOps0_1 (W1 m ρ c) (Proc.devRef .tc main_v1) = _
  after_results
  exact W1_v1 m ρ c

theorem W2_v3 (c : Dev nD) : W2 m ρ c (Proc.devRef .tc main_v3) = dstW (m ((c : Thread nD τ).loc main_arg1)) := by
  show StableHlo.after hostOps0_1 (W1 m ρ c) (Proc.devRef .tc main_v3) = _
  after_results
  exact W1_v3 m ρ c

theorem W2_arg (c : Dev nD) (b : Ref sig .tc) (hb : b = main_arg0 ∨ b = main_arg2 ∨ b = main_arg3 ∨ b = main_arg4 ∨ b = main_arg5 ∨ b = main_arg6 ∨ b = main_arg7) :
    W2 m ρ c (Proc.devRef .tc b) = m ((c : Thread nD τ).loc b) := by
  refine Eq.trans ?_ (W1_arg m ρ c b hb)
  rcases hb with rfl | rfl | rfl | rfl | rfl | rfl | rfl <;>
  · show StableHlo.after hostOps0_1 (W1 m ρ c) _ = _
    after_results

/-! ## Up to the first launch -/

set_option maxHeartbeats 4000000 in
theorem W3_v11 (c : Dev nD) : W3 m ρ c (Proc.devRef .tc main_v11) = srcS (m ((c : Thread nD τ).loc main_arg1)) := by
  show StableHlo.after hostOps0_2 (W2 m ρ c) (Proc.devRef .tc main_v11) = _
  after_results_simp
  rfl

set_option maxHeartbeats 4000000 in
theorem W3_v18 (c : Dev nD) : W3 m ρ c (Proc.devRef .tc main_v18) = dstS (m ((c : Thread nD τ).loc main_arg1)) := by
  show StableHlo.after hostOps0_2 (W2 m ρ c) (Proc.devRef .tc main_v18) = _
  after_results_simp
  rfl

set_option maxHeartbeats 4000000 in
theorem W3_v27 (c : Dev nD) : W3 m ρ c (Proc.devRef .tc main_v27) = inv (F := Ideal) (m ((c : Thread nD τ).loc main_arg1)) := by
  show StableHlo.after hostOps0_2 (W2 m ρ c) (Proc.devRef .tc main_v27) = _
  after_results_simp
  rfl

set_option maxHeartbeats 4000000 in
theorem W3_v37 (c : Dev nD) : W3 m ρ c (Proc.devRef .tc main_v37)
    = agg1 (F := Ideal) (m ((c : Thread nD τ).loc main_arg0)) (m ((c : Thread nD τ).loc main_arg1)) := by
  show StableHlo.after hostOps0_2 (W2 m ρ c) (Proc.devRef .tc main_v37) = _
  after_results_simp
  rfl

set_option maxHeartbeats 4000000 in
theorem W3_v38 (c : Dev nD) : W3 m ρ c (Proc.devRef .tc main_v38)
    = shapeCast S1x128 (m ((c : Thread nD τ).loc main_arg3)) Facts₀.shapeCasts_S128_S1x128 := by
  show StableHlo.after hostOps0_2 (W2 m ρ c) (Proc.devRef .tc main_v38) = _
  after_results_simp
  rfl

set_option maxHeartbeats 4000000 in
theorem W3_arg (c : Dev nD) (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) := by
  rcases hb with rfl | rfl | rfl | rfl | rfl | rfl | rfl <;>
  · show StableHlo.after hostOps0_2 (W2 m ρ c) _ = _
    after_results_simp
    try rfl

/-! ## Between the launches -/

/-- The first launch's output array, as the second launch and the host operations between them find it. -/
theorem W4_v39 (c : Dev nD) : W4 m ρ c (Proc.devRef .tc main_v39) = (dat0 (V3 m ρ) c).arrAt 6 cfg0.N :=
  W4_arr m ρ c 6

theorem W4_v11 (c : Dev nD) : W4 m ρ c (Proc.devRef .tc main_v11) = srcS (m ((c : Thread nD τ).loc main_arg1)) :=
  (W4_of_ne m ρ c main_v11 (by decide)).trans (W3_v11 m ρ c)

theorem W4_v18 (c : Dev nD) : W4 m ρ c (Proc.devRef .tc main_v18) = dstS (m ((c : Thread nD τ).loc main_arg1)) :=
  (W4_of_ne m ρ c main_v18 (by decide)).trans (W3_v18 m ρ c)

theorem W4_v27 (c : Dev nD) : W4 m ρ c (Proc.devRef .tc main_v27) = inv (F := Ideal) (m ((c : Thread nD τ).loc main_arg1)) :=
  (W4_arr m ρ c 2).trans (((dat0 (V3 m ρ) c).arrAt_in 2 rfl _).trans ((A_eq0 (V3 m ρ) c 2).trans (W3_v27 m ρ c)))

theorem W4_arg (c : Dev nD) (b : Ref sig .tc) (hb : b = main_arg5 ∨ b = main_arg6 ∨ b = main_arg7) :
    W4 m ρ c (Proc.devRef .tc b) = m ((c : Thread nD τ).loc b) := by
  rcases hb with rfl | rfl | rfl
  · exact (W4_of_ne m ρ c main_arg5 (by decide)).trans (W3_arg m ρ c _ (by simp))
  · exact (W4_of_ne m ρ c main_arg6 (by decide)).trans (W3_arg m ρ c _ (by simp))
  · exact (W4_of_ne m ρ c main_arg7 (by decide)).trans (W3_arg m ρ c _ (by simp))

/-! ## Up to the second launch -/

set_option maxHeartbeats 4000000 in
theorem W5_v50 (c : Dev nD) : W5 m ρ c (Proc.devRef .tc main_v50)
    = agg2 (F := Ideal) ((dat0 (V3 m ρ) c).arrAt 6 cfg0.N) (m ((c : Thread nD τ).loc main_arg1)) := by
  show StableHlo.after hostOps1 (W4 m ρ c) (Proc.devRef .tc main_v50) = _
  after_results_simp
  rw [W4_v39 m ρ c, W4_v18 m ρ c, W4_v11 m ρ c]
  rfl

theorem W5_v39 (c : Dev nD) : W5 m ρ c (Proc.devRef .tc main_v39) = (dat0 (V3 m ρ) c).arrAt 6 cfg0.N := by
  show StableHlo.after hostOps1 (W4 m ρ c) (Proc.devRef .tc main_v39) = _
  after_results
  exact W4_v39 m ρ c

theorem W5_v27 (c : Dev nD) : W5 m ρ c (Proc.devRef .tc main_v27) = inv (F := Ideal) (m ((c : Thread nD τ).loc main_arg1)) := by
  show StableHlo.after hostOps1 (W4 m ρ c) (Proc.devRef .tc main_v27) = _
  after_results
  exact W4_v27 m ρ c

theorem W5_v51 (c : Dev nD) : W5 m ρ c (Proc.devRef .tc main_v51)
    = shapeCast S1x32 (m ((c : Thread nD τ).loc main_arg6)) Facts₀.shapeCasts_S32_S1x32 := by
  show StableHlo.after hostOps1 (W4 m ρ c) (Proc.devRef .tc main_v51) = _
  after_results
  rw [W4_arg m ρ c main_arg6 (Or.inr (Or.inl rfl))]
  rfl

theorem W5_arg (c : Dev nD) (b : Ref sig .tc) (hb : b = main_arg5 ∨ b = main_arg7) :
    W5 m ρ c (Proc.devRef .tc b) = m ((c : Thread nD τ).loc b) := by
  rcases hb with rfl | rfl
  · show StableHlo.after hostOps1 (W4 m ρ c) (Proc.devRef .tc main_arg5) = _
    after_results
    exact W4_arg m ρ c _ (Or.inl rfl)
  · show StableHlo.after hostOps1 (W4 m ρ c) (Proc.devRef .tc main_arg7) = _
    after_results
    exact W4_arg m ρ c _ (Or.inr (Or.inr rfl))

end Cert.KernelIdeal.HostSide

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.KBody.lean ====
/-
  One block of a layer, at an entry.

  The body of each launch takes a block of T = 4000 rows: the neighbour sums A (T × 128), the node's own features H
  (T × 128), the column of reciprocal degrees d (T × 1), two weight matrices Wl, Wr (128 × C) and a bias row b (1 × C).
  At the ideal values the changes of float format are the identity and a matrix product into the zero accumulator is the
  textbook sum, so entry (p, j) of what the body stores is

      ( Σ_k (A(p,k) · d(p,0)) · Wl(k,j)  +  Σ_k H(p,k) · Wr(k,j) )  +  b(0,j),

  for the first layer (C = 128) followed by the maximum with 0, for the second (C = 32) as it is.
-/
import proofs.«176871_j11081015624123_2_alg».proof.Proof.Gen.KernelIdeal.Skeleton
import proofs.«176871_j11081015624123_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.LibRowOps

/-- The scaled neighbour sums of a block, at `(p, k)`: the sum times the row's reciprocal degree. -/
theorem scaled_apply (v0 : Vec Ideal S4000x1 .f32) (v2 : Vec Ideal S4000x128 .f32)
    (h1 : S4000x1.ShapeCasts S4000x1) (h2 : S4000x128.ShapeCasts S4000x128) (h3 : S4000x1.Broadcasts S4000x128)
    (hb : FTy.bf16.bits < FTy.f32.bits) (p : Fin 4000) (k : Fin 128) :
    (truncf .bf16 (mulf (shapeCast S4000x128 v2 h2) (broadcastTo S4000x128 (shapeCast S4000x1 v0 h1) h3)) hb : FVec Ideal S4000x128 .bf16) (ix2 p k)
      = v2 (ix2 p k) * v0 (ix2 p (0 : Fin 1)) := by
  show shapeCast S4000x128 v2 h2 (ix2 p k) * broadcastTo S4000x128 (shapeCast S4000x1 v0 h1) h3 (ix2 p k) = _
  rw [shapeCast_self, shapeCast_self, broadcastTo_a1_ab_apply]

/-- THE FIRST LAYER'S BLOCK at `(p, j)`. -/
theorem pay0_apply (v0 : Vec Ideal S4000x1 .f32) (v2 v7 : Vec Ideal S4000x128 .f32) (v9 v11 : Vec Ideal S128x128 .f32)
    (v16 : Vec Ideal S1x128 .f32) (p : Fin 4000) (j : Fin 128) :
    k0_pay1 (F := Ideal) v0 v2 v7 v9 v11 v16 (ix2 p j)
      = max (((∑ k : Fin 128, (v2 (ix2 p k) * v0 (ix2 p (0 : Fin 1))) * v9 (ix2 k j))
              + ∑ k : Fin 128, v7 (ix2 p k) * v11 (ix2 k j)) + v16 (ix2 (0 : Fin 1) j)) (Ideal.ofBits .f32 0x00000000#32) := by
  unfold k0_pay1
  show max ((_ + _) + _) _ = _
  refine congrArg₂ max (congrArg₂ (· + ·) (congrArg₂ (· + ·) ?_ ?_) ?_) rfl
  · refine (matmul_plain_apply _ rfl none _ _ p j).trans (Finset.sum_congr rfl fun k _ => ?_)
    rw [scaled_apply]
    rfl
  · exact matmul_plain_apply _ rfl none _ _ p j
  · rw [shapeCast_self]
    exact broadcastTo_1b_ab_apply _ _ p j

/-- THE SECOND LAYER'S BLOCK at `(p, j)`. -/
theorem pay1_apply (v0 : Vec Ideal S4000x1 .f32) (v2 : Vec Ideal S4000x128 .f32) (v7 : Vec Ideal S4000x128 .bf16)
    (v9 v11 : Vec Ideal S128x32 .f32) (v16 : Vec Ideal S1x32 .f32) (p : Fin 4000) (j : Fin 32) :
    k1_pay1 (F := Ideal) v0 v2 v7 v9 v11 v16 (ix2 p j)
      = ((∑ k : Fin 128, (v2 (ix2 p k) * v0 (ix2 p (0 : Fin 1))) * v9 (ix2 k j))
              + ∑ k : Fin 128, v7 (ix2 p k) * v11 (ix2 k j)) + v16 (ix2 (0 : Fin 1) j) := by
  unfold k1_pay1
  show (_ + _) + _ = _
  refine congrArg₂ (· + ·) (congrArg₂ (· + ·) ?_ ?_) ?_
  · refine (matmul_plain_apply _ rfl none _ _ p j).trans (Finset.sum_congr rfl fun k _ => ?_)
    rw [scaled_apply]
    rfl
  · refine (matmul_plain_apply _ rfl none _ _ p j).trans (Finset.sum_congr rfl fun k _ => ?_)
    rw [shapeCast_self]
    rfl
  · rw [shapeCast_self]
    exact broadcastTo_1b_ab_apply _ _ p j

end Cert.KernelIdeal.Body

end
-- ==== Proof.KBlocks0.lean ====
/-
  The first launch, from blocks to the whole array.

  The launch walks 25 grid points; at point t every row-blocked operand (the neighbour sums, the node features, the
  reciprocal degrees) is staged as rows 4000·t … 4000·t + 3999 of its array, the weights and the bias row whole, and
  the output block is written back to the same rows. The 25 output blocks tile the 100000 rows, so the output array
  ends holding, at every entry (n, j), the layer's formula read off the whole arrays as the launch found them:

      ( Σ_k (A(n,k) · d(n,0)) · Wl(k,j)  +  Σ_k H(n,k) · Wr(k,j) )  +  b(0,j),   then the maximum with 0.
-/
import proofs.«176871_j11081015624123_2_alg».proof.Proof.Gen.KernelIdeal.Frame
import proofs.«176871_j11081015624123_2_alg».proof.Proof.KBody
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx
open Idealize.SL Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

/-- The launch's arrays as it finds them, as functions on their literal index types. -/
abbrev arrA (c : Dev nD) : S100000x128.Idx → EReal := V c main_v37
abbrev arrH (c : Dev nD) : S100000x128.Idx → EReal := V c main_arg0
abbrev arrD (c : Dev nD) : S100000x1.Idx → EReal := V c main_v27
abbrev arrWl (c : Dev nD) : S128x128.Idx → EReal := V c main_arg2
abbrev arrWr (c : Dev nD) : S128x128.Idx → EReal := V c main_arg4
abbrev arrB (c : Dev nD) : S1x128.Idx → EReal := V c main_v38

theorem hz : (![0, 0] : Fin 2 → Nat) = fun _ => 0 := funext fun a => by fin_cases a <;> rfl

/-- The layer's formula on whole arrays, entry by entry. -/
def layer (A : S100000x128.Idx → EReal) (H : S100000x128.Idx → EReal) (D : S100000x1.Idx → EReal)
    (Wl Wr : S128x128.Idx → EReal) (B : S1x128.Idx → EReal) : S100000x128.Idx → EReal := fun i =>
  max (((∑ k : Fin 128, (A (ix2 (i 0) k) * D (ix2 (i 0) (0 : Fin 1))) * Wl (ix2 k (i 1)))
      + ∑ k : Fin 128, H (ix2 (i 0) k) * Wr (ix2 k (i 1))) + B (ix2 (0 : Fin 1) (i 1))) (Ideal.ofBits .f32 0x00000000#32)

/-- The printed index maps over the grid: a row-blocked window's block index is (t, 0), a resident one's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt N_0

/-- Row `p` of point `t`'s block is row `4000·t + p` of the array. -/
def row (t : Fin cfg0.N) (p : Fin 4000) : Fin 100000 := ⟨t.val * 4000 + p.val, by have := t_lt t; have := p.isLt; omega⟩

/-! ## Where each window's block sits in its array -/

theorem emb_0 (t : Fin cfg0.N) (p : Fin 4000) (k : Fin 128) :
    ((cfg0.win 0).blk t).view.emb (ix2 p k) = (ix2 (row t p) k : S100000x128.Idx) := by
  obtain ⟨e00, e01, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem emb_1 (t : Fin cfg0.N) (p : Fin 4000) (k : Fin 128) :
    ((cfg0.win 1).blk t).view.emb (ix2 p k) = (ix2 (row t p) k : S100000x128.Idx) := by
  obtain ⟨-, -, e10, e11, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

theorem emb_2 (t : Fin cfg0.N) (p : Fin 4000) (u : Fin 1) :
    ((cfg0.win 2).blk t).view.emb (ix2 p u) = (ix2 (row t p) u : S100000x1.Idx) := by
  obtain ⟨-, -, -, -, e20, e21, -⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 1 + 1 * u.val = u.val; omega

theorem emb_3 (t : Fin cfg0.N) (k : Fin 128) (j : Fin 128) :
    ((cfg0.win 3).blk t).view.emb (ix2 k j) = (ix2 k j : S128x128.Idx) := by
  obtain ⟨-, -, -, -, -, -, e30, e31, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * j.val = j.val; omega

theorem emb_4 (t : Fin cfg0.N) (k : Fin 128) (j : Fin 128) :
    ((cfg0.win 4).blk t).view.emb (ix2 k j) = (ix2 k j : S128x128.Idx) := by
  obtain ⟨-, -, -, -, -, -, -, -, e40, e41, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * j.val = j.val; omega

theorem emb_5 (t : Fin cfg0.N) (u : Fin 1) (j : Fin 128) :
    ((cfg0.win 5).blk t).view.emb (ix2 u j) = (ix2 u j : S1x128.Idx) := by
  obtain ⟨-, -, -, -, -, -, -, -, -, -, e50, e51, -⟩ := idx_facts t
  funext a; apply Fin.ext
  match a with
  | ⟨0, _⟩ => show win0_5.index t (0 : Fin 2) * 1 + 1 * u.val = u.val; omega
  | ⟨1, _⟩ => show win0_5.index t (1 : Fin 2) * 128 + 1 * j.val = j.val; omega

theorem emb_6 (t : Fin cfg0.N) (p : Fin 4000) (j : Fin 128) :
    ((cfg0.win 6).blk t).view.emb (ix2 p j) = (ix2 (row t p) j : S100000x128.Idx) := by
  obtain ⟨-, -, -, -, -, -, -, -, -, -, -, -, e60, e61⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 128 + 1 * j.val = j.val; omega

/-! ## What point `t` writes back -/

set_option maxHeartbeats 1000000 in
/-- WHAT POINT `t` WRITES BACK is block `t` of the layer's formula on the arrays as the launch finds them. -/
theorem flushed_eq (c : Dev nD) (t : Fin cfg0.N) :
    (dat0 V c).flushed 6 t = ((cfg0.win 6).blk t).view.read (Elt Ideal)
      (layer (arrA V c) (arrH V c) (arrD V c) (arrWl V c) (arrWr V c) (arrB V c)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  refine (pay0_apply _ _ _ _ _ _ p q).trans ?_
  show _ = layer (arrA V c) (arrH V c) (arrD V c) (arrWl V c) (arrWr V c) (arrB V c)
    (((cfg0.win 6).blk t).view.emb (ix2 p q))
  rw [emb_6]
  show max (((∑ k : Fin 128, (arrA V c (((cfg0.win 0).blk t).view.emb (ix2 p k)) * arrD V c (((cfg0.win 2).blk t).view.emb (ix2 p (0 : Fin 1))))
        * arrWl V c (((cfg0.win 3).blk t).view.emb (ix2 k q)))
      + ∑ k : Fin 128, arrH V c (((cfg0.win 1).blk t).view.emb (ix2 p k)) * arrWr V c (((cfg0.win 4).blk t).view.emb (ix2 k q)))
      + arrB V c (((cfg0.win 5).blk t).view.emb (ix2 (0 : Fin 1) q))) (Ideal.ofBits .f32 0x00000000#32)
    = max (((∑ k : Fin 128, (arrA V c (ix2 (row t p) k) * arrD V c (ix2 (row t p) (0 : Fin 1))) * arrWl V c (ix2 k q))
      + ∑ k : Fin 128, arrH V c (ix2 (row t p) k) * arrWr V c (ix2 k q)) + arrB V c (ix2 (0 : Fin 1) q)) (Ideal.ofBits .f32 0x00000000#32)
  refine congrArg₂ max (congrArg₂ (· + ·) (congrArg₂ (· + ·) (Finset.sum_congr rfl fun k _ => ?_) (Finset.sum_congr rfl fun k _ => ?_)) ?_) rfl
  · exact congrArg₂ (· * ·) (congrArg₂ (· * ·) (congrArg (arrA V c) (emb_0 t p k)) (congrArg (arrD V c) (emb_2 t p 0)))
      (congrArg (arrWl V c) (emb_3 t k q))
  · exact congrArg₂ (· * ·) (congrArg (arrH V c) (emb_1 t p k)) (congrArg (arrWr V c) (emb_4 t k q))
  · exact congrArg (arrB V c) (emb_5 t 0 q)

/-! ## The blocks tile the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v39).slice (win0_6.rect t)).set ↔ _
  rw [View.set_slice_whole, Rect.mem_set_unit]
  exact Iff.rfl

/-- Every entry of the array is in the block of the point that holds its row. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, e60, e61⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE OUTPUT ARRAY after the launch: the layer's formula on the arrays as the launch found them. -/
theorem final (c : Dev nD) : (dat0 V c).arrAt 6 cfg0.N
    = layer (arrA V c) (arrH V c) (arrD V c) (arrWl V c) (arrWr V c) (arrB V c) :=
  (dat0 V c).arrAt_eq_of_cover 6 _ (fun t _ => flushed_eq V c t) cover

end Cert.KernelIdeal.Blocks0

end
-- ==== Proof.KBlocks1.lean ====
/-
  The second launch, from blocks to the whole array.

  The launch walks 25 grid points; at point t every row-blocked operand (the neighbour sums, the node features, the
  reciprocal degrees) is staged as rows 4000·t … 4000·t + 3999 of its array, the weights and the bias row whole, and
  the output block is written back to the same rows. The 25 output blocks tile the 100000 rows, so the output array
  ends holding, at every entry (n, j), the layer's formula read off the whole arrays as the launch found them:

      ( Σ_k (A(n,k) · d(n,0)) · Wl(k,j)  +  Σ_k H(n,k) · Wr(k,j) )  +  b(0,j).
-/
import proofs.«176871_j11081015624123_2_alg».proof.Proof.Gen.KernelIdeal.Frame
import proofs.«176871_j11081015624123_2_alg».proof.Proof.KBody
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx
open Idealize.SL Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

/-- The launch's arrays as it finds them, as functions on their literal index types. -/
abbrev arrA (c : Dev nD) : S100000x128.Idx → EReal := V c main_v50
abbrev arrH (c : Dev nD) : S100000x128.Idx → EReal := V c main_v39
abbrev arrD (c : Dev nD) : S100000x1.Idx → EReal := V c main_v27
abbrev arrWl (c : Dev nD) : S128x32.Idx → EReal := V c main_arg5
abbrev arrWr (c : Dev nD) : S128x32.Idx → EReal := V c main_arg7
abbrev arrB (c : Dev nD) : S1x32.Idx → EReal := V c main_v51

theorem hz : (![0, 0] : Fin 2 → Nat) = fun _ => 0 := funext fun a => by fin_cases a <;> rfl

/-- The layer's formula on whole arrays, entry by entry. -/
def layer (A : S100000x128.Idx → EReal) (H : S100000x128.Idx → EReal) (D : S100000x1.Idx → EReal)
    (Wl Wr : S128x32.Idx → EReal) (B : S1x32.Idx → EReal) : S100000x32.Idx → EReal := fun i =>
  ((∑ k : Fin 128, (A (ix2 (i 0) k) * D (ix2 (i 0) (0 : Fin 1))) * Wl (ix2 k (i 1)))
      + ∑ k : Fin 128, H (ix2 (i 0) k) * Wr (ix2 k (i 1))) + B (ix2 (0 : Fin 1) (i 1))

/-- The printed index maps over the grid: a row-blocked window's block index is (t, 0), a resident one's (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 25 := lt_of_lt_of_eq t.isLt N_1

/-- Row `p` of point `t`'s block is row `4000·t + p` of the array. -/
def row (t : Fin cfg1.N) (p : Fin 4000) : Fin 100000 := ⟨t.val * 4000 + p.val, by have := t_lt t; have := p.isLt; omega⟩

/-! ## Where each window's block sits in its array -/

theorem emb_0 (t : Fin cfg1.N) (p : Fin 4000) (k : Fin 128) :
    ((cfg1.win 0).blk t).view.emb (ix2 p k) = (ix2 (row t p) k : S100000x128.Idx) := by
  obtain ⟨e00, e01, -⟩ := idx_facts t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem emb_1 (t : Fin cfg1.N) (p : Fin 4000) (k : Fin 128) :
    ((cfg1.win 1).blk t).view.emb (ix2 p k) = (ix2 (row t p) k : S100000x128.Idx) := by
  obtain ⟨-, -, e10, e11, -⟩ := idx_facts t
  funext a; apply Fin.ext
  match a with
  | ⟨0, _⟩ => show win1_1.index t (0 : Fin 2) * 4000 + 1 * p.val = t.val * 4000 + p.val; omega
  | ⟨1, _⟩ => show win1_1.index t (1 : Fin 2) * 128 + 1 * k.val = k.val; omega

theorem emb_2 (t : Fin cfg1.N) (p : Fin 4000) (u : Fin 1) :
    ((cfg1.win 2).blk t).view.emb (ix2 p u) = (ix2 (row t p) u : S100000x1.Idx) := by
  obtain ⟨-, -, -, -, e20, e21, -⟩ := idx_facts t
  funext a; apply Fin.ext
  match a with
  | ⟨0, _⟩ => show win1_2.index t (0 : Fin 2) * 4000 + 1 * p.val = t.val * 4000 + p.val; omega
  | ⟨1, _⟩ => show win1_2.index t (1 : Fin 2) * 1 + 1 * u.val = u.val; omega

theorem emb_3 (t : Fin cfg1.N) (k : Fin 128) (j : Fin 32) :
    ((cfg1.win 3).blk t).view.emb (ix2 k j) = (ix2 k j : S128x32.Idx) := by
  obtain ⟨-, -, -, -, -, -, e30, e31, -⟩ := idx_facts t
  funext a; apply Fin.ext
  match a with
  | ⟨0, _⟩ => show win1_3.index t (0 : Fin 2) * 128 + 1 * k.val = k.val; omega
  | ⟨1, _⟩ => show win1_3.index t (1 : Fin 2) * 32 + 1 * j.val = j.val; omega

theorem emb_4 (t : Fin cfg1.N) (k : Fin 128) (j : Fin 32) :
    ((cfg1.win 4).blk t).view.emb (ix2 k j) = (ix2 k j : S128x32.Idx) := by
  obtain ⟨-, -, -, -, -, -, -, -, e40, e41, -⟩ := idx_facts t
  funext a; apply Fin.ext
  match a with
  | ⟨0, _⟩ => show win1_4.index t (0 : Fin 2) * 128 + 1 * k.val = k.val; omega
  | ⟨1, _⟩ => show win1_4.index t (1 : Fin 2) * 32 + 1 * j.val = j.val; omega

theorem emb_5 (t : Fin cfg1.N) (u : Fin 1) (j : Fin 32) :
    ((cfg1.win 5).blk t).view.emb (ix2 u j) = (ix2 u j : S1x32.Idx) := by
  obtain ⟨-, -, -, -, -, -, -, -, -, -, e50, e51, -⟩ := idx_facts t
  funext a; apply Fin.ext
  match a with
  | ⟨0, _⟩ => show win1_5.index t (0 : Fin 2) * 1 + 1 * u.val = u.val; omega
  | ⟨1, _⟩ => show win1_5.index t (1 : Fin 2) * 32 + 1 * j.val = j.val; omega

theorem emb_6 (t : Fin cfg1.N) (p : Fin 4000) (j : Fin 32) :
    ((cfg1.win 6).blk t).view.emb (ix2 p j) = (ix2 (row t p) j : S100000x32.Idx) := by
  obtain ⟨-, -, -, -, -, -, -, -, -, -, -, -, e60, e61⟩ := idx_facts t
  funext a; apply Fin.ext
  match a with
  | ⟨0, _⟩ => show win1_6.index t (0 : Fin 2) * 4000 + 1 * p.val = t.val * 4000 + p.val; omega
  | ⟨1, _⟩ => show win1_6.index t (1 : Fin 2) * 32 + 1 * j.val = j.val; omega

/-! ## What point `t` writes back -/

set_option maxHeartbeats 1000000 in
/-- WHAT POINT `t` WRITES BACK is block `t` of the layer's formula on the arrays as the launch finds them. -/
theorem flushed_eq (c : Dev nD) (t : Fin cfg1.N) :
    (dat1 V c).flushed 6 t = ((cfg1.win 6).blk t).view.read (Elt Ideal)
      (layer (arrA V c) (arrH V c) (arrD V c) (arrWl V c) (arrWr V c) (arrB V c)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x32) hz, View.ld_unit_zero (S := S1x32) hz]
  funext j
  obtain ⟨p, q, rfl⟩ : ∃ (p : Fin 4000) (q : Fin 32), j = ix2 p q := ⟨j 0, j 1, eq_ix2 j⟩
  refine (pay1_apply _ _ _ _ _ _ p q).trans ?_
  show _ = layer (arrA V c) (arrH V c) (arrD V c) (arrWl V c) (arrWr V c) (arrB V c)
    (((cfg1.win 6).blk t).view.emb (ix2 p q))
  rw [emb_6]
  show ((∑ k : Fin 128, (arrA V c (((cfg1.win 0).blk t).view.emb (ix2 p k)) * arrD V c (((cfg1.win 2).blk t).view.emb (ix2 p (0 : Fin 1))))
        * arrWl V c (((cfg1.win 3).blk t).view.emb (ix2 k q)))
      + ∑ k : Fin 128, arrH V c (((cfg1.win 1).blk t).view.emb (ix2 p k)) * arrWr V c (((cfg1.win 4).blk t).view.emb (ix2 k q)))
      + arrB V c (((cfg1.win 5).blk t).view.emb (ix2 (0 : Fin 1) q))
    = ((∑ k : Fin 128, (arrA V c (ix2 (row t p) k) * arrD V c (ix2 (row t p) (0 : Fin 1))) * arrWl V c (ix2 k q))
      + ∑ k : Fin 128, arrH V c (ix2 (row t p) k) * arrWr V c (ix2 k q)) + arrB V c (ix2 (0 : Fin 1) q)
  refine congrArg₂ (· + ·) (congrArg₂ (· + ·) (Finset.sum_congr rfl fun k _ => ?_) (Finset.sum_congr rfl fun k _ => ?_)) ?_
  · exact congrArg₂ (· * ·) (congrArg₂ (· * ·) (congrArg (arrA V c) (emb_0 t p k)) (congrArg (arrD V c) (emb_2 t p 0)))
      (congrArg (arrWl V c) (emb_3 t k q))
  · exact congrArg₂ (· * ·) (congrArg (arrH V c) (emb_1 t p k)) (congrArg (arrWr V c) (emb_4 t k q))
  · exact congrArg (arrB V c) (emb_5 t 0 q)

/-! ## The blocks tile the array -/

/-- An index of the array is in point `t`'s block iff each coordinate is in the block's range on its axis. -/
theorem mem_blk (t : Fin cfg1.N) (i : S100000x32.Idx) :
    i ∈ ((cfg1.win 6).blk t).view.set ↔ ∀ a : Fin 2, win1_6.index t a * S4000x32.size a ≤ (i a).val ∧ (i a).val < win1_6.index t a * S4000x32.size a + S4000x32.size a := by
  show i ∈ ((View.whole main_v52).slice (win1_6.rect t)).set ↔ _
  rw [View.set_slice_whole, Rect.mem_set_unit]
  exact Iff.rfl

/-- Every entry of the array is in the block of the point that holds its row. -/
theorem cover (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 25 := N_1
  let t : Fin cfg1.N := ⟨(i 0).val / 4000, by rw [hN]; omega⟩
  obtain ⟨-, -, -, -, -, -, -, -, -, -, -, -, e60, e61⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 32 ≤ (i 1).val ∧ (i 1).val < win1_6.index t (1 : Fin 2) * 32 + 32; omega

/-- THE OUTPUT ARRAY after the launch: the layer's formula on the arrays as the launch found them. -/
theorem final (c : Dev nD) : (dat1 V c).arrAt 6 cfg1.N
    = layer (arrA V c) (arrH V c) (arrD V c) (arrWl V c) (arrWr V c) (arrB V c) :=
  (dat1 V c).arrAt_eq_of_cover 6 _ (fun t _ => flushed_eq V c t) cover

end Cert.KernelIdeal.Blocks1

end
-- ==== Proof.RefLayers.lean ====
/-
  The reference's two layers, at an entry.

  With S = the neighbour sums of the layer's input (a table of 128 features per node), r(n) = 1 / max(deg n, 1) and the
  layer's input X, entry (n, j) of a layer is

      ( Σ_k (S(n,k) · r(n)) · Wl(k,j)  +  b(j) )  +  Σ_k X(n,k) · Wr(k,j),

  the first layer followed by the maximum with 0. Each stage of the reference is read at the entry by its own lemma;
  what is proved here is only that the composed index maps are the evident ones: the matrix products read row n of the
  left operand and column j of the right, the reciprocal degrees are read at n, the bias at j.
-/
import proofs.«176871_j11081015624123_2_alg».proof.Proof.Gen.ReferenceIdeal.Read
import Idealize.ShloMosaic.Lib.ValueIdx

noncomputable section

namespace Cert.ReferenceIdeal.Layers

open Idealize.ShloMosaic Idealize.ShloMosaic.ValueIdx Cert.ReferenceIdeal Cert.ReferenceIdeal.Read

/-! ## The composed index maps -/

theorem l25 (n : Fin 100000) (j k : Fin 128) : lidx_main_v25 (ix2 n j) k = ix2 n k :=
  funext fun a => Fin.ext (by match a with | ⟨0, _⟩ => rfl | ⟨1, _⟩ => rfl)
theorem r25 (n : Fin 100000) (j k : Fin 128) : ridx_main_v25 (ix2 n j) k = ix2 k j :=
  funext fun a => Fin.ext (by match a with | ⟨0, _⟩ => rfl | ⟨1, _⟩ => rfl)
theorem l29 (n : Fin 100000) (j k : Fin 128) : lidx_main_v29 (ix2 n j) k = ix2 n k :=
  funext fun a => Fin.ext (by match a with | ⟨0, _⟩ => rfl | ⟨1, _⟩ => rfl)
theorem r29 (n : Fin 100000) (j k : Fin 128) : ridx_main_v29 (ix2 n j) k = ix2 k j :=
  funext fun a => Fin.ext (by match a with | ⟨0, _⟩ => rfl | ⟨1, _⟩ => rfl)
theorem i23 (n : Fin 100000) (k : Fin 128) : idx_main_v22 (idx_main_v23 (ix2 n k)) = ix1 n :=
  funext fun a => Fin.ext (by match a with | ⟨0, _⟩ => rfl)
theorem i27 (n : Fin 100000) (j : Fin 128) : idx_main_v26 (idx_main_v27 (ix2 n j)) = ix1 j :=
  funext fun a => Fin.ext (by match a with | ⟨0, _⟩ => rfl)
theorem l45 (n : Fin 100000) (j : Fin 32) (k : Fin 128) : lidx_main_v45 (ix2 n j) k = ix2 n k :=
  funext fun a => Fin.ext (by match a with | ⟨0, _⟩ => rfl | ⟨1, _⟩ => rfl)
theorem r45 (n : Fin 100000) (j : Fin 32) (k : Fin 128) : ridx_main_v45 (ix2 n j) k = ix2 k j :=
  funext fun a => Fin.ext (by match a with | ⟨0, _⟩ => rfl | ⟨1, _⟩ => rfl)
theorem l49 (n : Fin 100000) (j : Fin 32) (k : Fin 128) : lidx_main_v49 (ix2 n j) k = ix2 n k :=
  funext fun a => Fin.ext (by match a with | ⟨0, _⟩ => rfl | ⟨1, _⟩ => rfl)
theorem r49 (n : Fin 100000) (j : Fin 32) (k : Fin 128) : ridx_main_v49 (ix2 n j) k = ix2 k j :=
  funext fun a => Fin.ext (by match a with | ⟨0, _⟩ => rfl | ⟨1, _⟩ => rfl)
theorem i43 (n : Fin 100000) (k : Fin 128) : idx_main_v42 (idx_main_v43 (ix2 n k)) = ix1 n :=
  funext fun a => Fin.ext (by match a with | ⟨0, _⟩ => rfl)
theorem i47 (n : Fin 100000) (j : Fin 32) : idx_main_v46 (idx_main_v47 (ix2 n j)) = ix1 j :=
  funext fun a => Fin.ext (by match a with | ⟨0, _⟩ => rfl)

/-! ## The layers -/

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x32, .f32⟩ : BufTy).Contents (Elt Ideal))
  (x6 : (⟨S32, .f32⟩ : BufTy).Contents (Elt Ideal)) (x7 : (⟨S128x32, .f32⟩ : BufTy).Contents (Elt Ideal))

/-- THE FIRST LAYER at `(n, j)`. -/
theorem layer1_apply (n : Fin 100000) (j : Fin 128) :
    val_main_v31 (F := Ideal) x0 x1 x2 x3 x4 (ix2 n j)
      = max (((∑ k : Fin 128, (val_main_v21 (F := Ideal) x0 x1 (ix2 n k) * val_main_v11 (F := Ideal) x1 (ix1 n)) * x2 (ix2 k j))
              + x3 (ix1 j)) + ∑ k : Fin 128, x0 (ix2 n k) * x4 (ix2 k j)) (Ideal.ofBits .f32 0x00000000#32) := by
  rw [val_main_v31_apply, val_main_v30_apply, val_main_v28_apply, val_main_v25_apply, val_main_v29_apply,
    val_main_v27_apply, val_main_v26_apply, val_main_call0_v0_apply, val_main_call0_cst_apply]
  simp only [val_main_v24_apply, val_main_v23_apply, val_main_v22_apply, l25, r25, l29, r29, i23, i27,
    Ideal.maximumf_def, Ideal.addf_def, Ideal.mulf_def, Ideal.ofBits_def]

/-- THE SECOND LAYER at `(n, j)`. -/
theorem layer2_apply (n : Fin 100000) (j : Fin 32) :
    val_main_v50 (F := Ideal) x0 x1 x2 x3 x4 x5 x6 x7 (ix2 n j)
      = ((∑ k : Fin 128, (val_main_v41 (F := Ideal) x0 x1 x2 x3 x4 (ix2 n k) * val_main_v11 (F := Ideal) x1 (ix1 n)) * x5 (ix2 k j))
              + x6 (ix1 j)) + ∑ k : Fin 128, val_main_v31 (F := Ideal) x0 x1 x2 x3 x4 (ix2 n k) * x7 (ix2 k j) := by
  rw [val_main_v50_apply, val_main_v48_apply, val_main_v45_apply, val_main_v49_apply, val_main_v47_apply, val_main_v46_apply]
  simp only [val_main_v44_apply, val_main_v43_apply, val_main_v42_apply, l45, r45, l49, r49, i43, i47,
    Ideal.addf_def, Ideal.mulf_def]

end Cert.ReferenceIdeal.Layers

end
-- ==== Proof.LibSortPerm.lean ====
/-
  A TWO-OPERAND SORT OF RANK-1 ARRAYS READS BOTH THROUGH ONE BIJECTION OF THE POSITIONS.

  `stablehlo.sort` of two arrays of length n along their one axis (an argsort: keys and the positions 0 … n-1) puts at
  position k the elements of both arrays that stood at position π(k), where π — the same for both, and for every k — is
  the stable sorting permutation of the positions under the comparator on the pairs. π is a bijection of the n
  positions (`sortPerm_bijective`), each output reads its input at π (`sort2_rank1_fst`, `sort2_rank1_snd`), and when
  the second array holds the positions themselves the second output at k is the word of π(k) (`argsort_apply`).

  Also: a position below 2^31, as a 32-bit word, is non-negative when read signed, so it is its own Python-style index
  (`pyIndex_ofNat`: "if i < 0 then i + n else i" leaves it alone) and reads back as itself (`toInt_ofNat_small`).
-/
import Idealize.ShloMosaic.Lib.SortFacts
import Idealize.ShloMosaic.Lib.ValueIdx

open Idealize.ShloMosaic Idealize.ShloMosaic.ValueIdx

namespace Cert.LibSortPerm

variable {n : Nat} {α β : Type}

/-- The rank-1 index at coordinate `k`, in both spellings. -/
theorem ofFin_eq_ix1 (k : Fin n) : Shape.Idx.ofFin k = ix1 k := by
  funext a
  match a with
  | ⟨0, _⟩ => exact Fin.ext rfl

/-- The position whose elements a stable two-operand sort under `cmp` puts at position `k`. -/
def sortPerm (cmp : α × β → α × β → BitVec 1) (x : (⟨1, ![n]⟩ : Shape).Idx → α) (y : (⟨1, ![n]⟩ : Shape).Idx → β) :
    Fin n → Fin n :=
  sortedFrom (fun k k' => cmp (x (Shape.Idx.ofFin k), y (Shape.Idx.ofFin k)) (x (Shape.Idx.ofFin k'), y (Shape.Idx.ofFin k')) == 1#1)

/-- It is a bijection of the positions. -/
theorem sortPerm_bijective (cmp : α × β → α × β → BitVec 1) (x : (⟨1, ![n]⟩ : Shape).Idx → α)
    (y : (⟨1, ![n]⟩ : Shape).Idx → β) : Function.Bijective (sortPerm cmp x y) :=
  ⟨sortedFrom_injective _, sortedFrom_surjective _⟩

/-- The sorted first array at `j`: the first array at the position the sort reads for `j`. -/
theorem sort2_rank1_fst (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (ix1 (sortPerm cmp x y (j 0))) := by
  rw [← ofFin_eq_ix1]
  unfold Host.sort2 sortPerm
  simp

/-- The sorted second array at `j`: the second array at the same position. -/
theorem sort2_rank1_snd (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (ix1 (sortPerm cmp x y (j 0))) := by
  rw [← ofFin_eq_ix1]
  unfold Host.sort2 sortPerm
  simp

/-- AN ARGSORT'S OUTPUT AT `e` IS THE WORD OF THE POSITION IT READS: the positions 0 … n-1 carried through the sort. -/
theorem argsort_apply {w : Nat} (cmp : α × BitVec w → α × BitVec w → BitVec 1) (x : (⟨1, ![n]⟩ : Shape).Idx → α) (e : Fin n) :
    (Host.sort2 ⟨1, ![n]⟩ 0 cmp x (iotaInDim ⟨1, ![n]⟩ w 0)).2 (ix1 e)
      = BitVec.ofNat w (sortPerm cmp x (iotaInDim ⟨1, ![n]⟩ w 0) e).val := by
  rw [sort2_rank1_snd]
  rfl

/-! ## Positions as 32-bit words -/

/-- A natural number below 2^31, as a 32-bit word, reads back signed as itself. -/
theorem toInt_ofNat_small (k : Nat) (hk : k < 2147483648) : (BitVec.ofNat 32 k).toInt = (k : Int) := by
  rw [BitVec.toInt_eq_toNat_cond, BitVec.toNat_ofNat]
  have h32 : (2 : Nat) ^ 32 = 4294967296 := by norm_num
  rw [h32, Nat.mod_eq_of_lt (by omega)]
  split <;> omega

/-- "if i < 0 then i + n else i" on a word: a Python-style index into an axis of extent `n`. -/
def pyIndex (n o : BitVec 32) : BitVec 32 := Scalar.select (IntOp.cmpi .slt o 0#32) (IntOp.addi o n) o

/-- A position below 2^31 is non-negative, so it is its own Python-style index. -/
theorem pyIndex_ofNat (n : BitVec 32) (k : Nat) (hk : k < 2147483648) : pyIndex n (BitVec.ofNat 32 k) = BitVec.ofNat 32 k := by
  have h : (BitVec.ofNat 32 k).slt 0#32 = false := by
    rw [BitVec.slt, toInt_ofNat_small k hk]
    simp
  unfold pyIndex Scalar.select IntOp.cmpi
  simp only [h]
  rfl

end Cert.LibSortPerm
-- ==== Proof.LibEdgeIndex.lean ====
/-
  EDGE INDEXING: which operand element a gather along an edge list reads, and which operand element a scatter along an
  edge list lands on, for the three sets of dimension numbers that "table[edge]" (a row of a table, or an entry of a
  vector, per edge) and "sum per-edge values into nodes" lower to.

  Setting. A graph has N nodes and E edges; an edge list is an integer array of shape [E, 1] whose word at (e, 0) names
  a node. Write k(e) for that word read as a SIGNED integer.

  * Gather of rows. For a table of shape [N, C] and dimension numbers offset_dims = [1], collapsed_slice_dims = [0],
    start_index_map = [0], index_vector_dim = 1, slice_sizes = [1, C] and no batching axes, the result has shape [E, C]
    and its element (e, f) is the table's element (clamp k(e), f), where clamp k = min (max k 0) (N - 1): on the
    collapsed axis 0 the operand coordinate is the start index, clamped so that the slice of size 1 fits, and on axis 1
    the start is 0 and the coordinate is the result's offset coordinate f (`gather_rows_operandIdx`,
    `gather_rows_apply`).
  * Gather of entries. For a vector of shape [N] and dimension numbers offset_dims = [], collapsed_slice_dims = [0],
    start_index_map = [0], index_vector_dim = 1, slice_sizes = [1], the result has shape [E] and its element e is the
    vector's element clamp k(e) (`gather_entries_operandIdx`, `gather_entries_apply`).
  * Scatter into entries. For an operand of shape [N], updates of shape [E] and dimension numbers
    update_window_dims = [], inserted_window_dims = [0], scatter_dims_to_operand_dims = [0], index_vector_dim = 1,
    update e has start k(e) on axis 0 (NOT clamped) and window coordinate 0 (`scatter_entries_start`,
    `scatter_entries_window`); so it lands on operand element k(e) when 0 ≤ k(e) < N
    (`scatter_entries_resultIdx`) and is dropped otherwise (`scatter_entries_resultIdx_none`).

  The natural number (k).toNat is max k 0, so min (k).toNat (N - 1) is the clamp above.

  Every statement is about an ARBITRARY record of dimension numbers whose fields are given by equations; for a record
  written with literal fields each equation holds by `rfl`. The proofs replace the record by the literal one (the
  equations are substituted), evaluate the list lookups of the index functions on it, and identify the start-indices
  index "the result's batch coordinates with component 0 on the index vector's axis" with (e, 0) axis by axis.
-/
import Idealize.ShloMosaic.Lib.ValueIdx

open Idealize.ShloMosaic Idealize.ShloMosaic.ValueIdx

namespace Cert.LibEdgeIndex

/-! ## Scatter into the entries of a vector -/

section ScatterEntries
variable {N E w : Nat}

/-- The start on axis 0 of update `e` is the edge word `idx[e, 0]` read signed (no clamping), and its window
    coordinate there is 0 (axis 0 is an inserted window axis, so no update axis is a window axis of it). -/
theorem scatter_entries_start_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt ∧ d.window (ix1 e) 0 = 0 := by
  obtain ⟨uw, iw, sd, iv, wf⟩ := d
  simp only at h1 h2 h3 h4
  subst h1 h2 h3 h4
  generalize hd : (⟨[], [0], [0], 1, wf⟩ : ScatterDims ⟨1, ![N]⟩ ⟨2, ![E, 1]⟩ ⟨1, ![E]⟩) = d
  -- axis 0 is named by the scatter-dims-to-operand-dims map, at position 0
  have hmem : (0 : Fin 1) ∈ d.scatterDimsToOperandDims := by subst hd; exact List.mem_singleton.mpr rfl
  -- the scatter-indices index read for that component is (e, 0)
  have hsi : d.siIdx (ix1 e) ⟨List.idxOf (0 : Fin 1) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_⟩
  · unfold ScatterDims.start
    rw [dif_pos hmem, hsi]
  · -- the operand's kept axes are the axes of [N] outside [0]: none
    unfold ScatterDims.window
    rw [dif_neg]
    subst hd
    show (0 : Fin 1) ∉ (List.finRange 1).filter (· ∉ [0])
    decide

/-- The start on axis 0 of update `e`: the edge word read signed. -/
theorem scatter_entries_start (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt :=
  (scatter_entries_start_window d h1 h2 h3 h4 idx e).1

/-- The window coordinate on axis 0 of update `e`: zero. -/
theorem scatter_entries_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.window (ix1 e) 0 = 0 :=
  (scatter_entries_start_window d h1 h2 h3 h4 idx e).2

/-- AN EDGE WORD IN RANGE LANDS ON ITS NODE: when `0 ≤ idx[e, 0] < N` (read signed), update `e` lands on operand
    element `idx[e, 0]`. -/
theorem scatter_entries_resultIdx (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hlo : 0 ≤ (idx (ix2 e 0)).toInt) (hhi : (idx (ix2 e 0)).toInt < N) :
    d.resultIdx? (ix1 e) idx = some (ix1 ⟨(idx (ix2 e 0)).toInt.toNat, by omega⟩) := by
  obtain ⟨hst, hwin⟩ := scatter_entries_start_window d h1 h2 h3 h4 idx e
  -- the landing index is inside the operand on its one axis
  have hcond : ∀ a, 0 ≤ d.start (ix1 e) idx a + d.window (ix1 e) a ∧
      d.start (ix1 e) idx a + d.window (ix1 e) a < (⟨1, ![N]⟩ : Shape).size a := by
    intro a
    obtain rfl : a = 0 := Subsingleton.elim _ _
    rw [hst, hwin]
    show 0 ≤ (idx (ix2 e 0)).toInt + ((0 : Nat) : Int) ∧ (idx (ix2 e 0)).toInt + ((0 : Nat) : Int) < (N : Int)
    omega
  unfold ScatterDims.resultIdx?
  rw [dif_pos hcond]
  congr 1
  funext a
  obtain rfl : a = 0 := Subsingleton.elim _ _
  refine Fin.ext ?_
  show (d.start (ix1 e) idx 0 + d.window (ix1 e) 0).toNat = (idx (ix2 e 0)).toInt.toNat
  rw [hst, hwin]
  simp

/-- AN EDGE WORD OUT OF RANGE IS DROPPED: when `idx[e, 0]` (read signed) is negative or at least `N`, update `e`
    lands nowhere. -/
theorem scatter_entries_resultIdx_none (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hout : (idx (ix2 e 0)).toInt < 0 ∨ (N : Int) ≤ (idx (ix2 e 0)).toInt) :
    d.resultIdx? (ix1 e) idx = none := by
  obtain ⟨hst, hwin⟩ := scatter_entries_start_window d h1 h2 h3 h4 idx e
  unfold ScatterDims.resultIdx?
  rw [dif_neg]
  intro h
  have h0 := h 0
  rw [hst, hwin] at h0
  have h0' : 0 ≤ (idx (ix2 e 0)).toInt + ((0 : Nat) : Int) ∧ (idx (ix2 e 0)).toInt + ((0 : Nat) : Int) < (N : Int) := h0
  omega

end ScatterEntries

/-! ## Gather of the rows of a table -/

section GatherRows
variable {N E C w : Nat}

/-- THE ROW GATHER'S OPERAND INDEX: result element `(e, f)` reads the table at row `idx[e, 0]`, read signed and
    clamped into `[0, N − 1]`, and column `f`. -/
theorem gather_rows_operandIdx (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![E, 1]⟩ w) (e : Fin E) (f : Fin C) :
    d.operandIdx (ix2 e f) idx = ix2 ⟨min (idx (ix2 e 0)).toInt.toNat (N - 1), by omega⟩ f := by
  obtain ⟨od, cd, ob, sb, sm, iv, ss, wf⟩ := d
  simp only at h1 h2 h3 h4 h5 h6 h7
  subst h1 h2 h3 h4 h5 h6 h7
  generalize hd : (⟨[1], [0], [], [], [0], 1, ![1, C], wf⟩ : GatherDims ⟨2, ![N, C]⟩ ⟨2, ![E, 1]⟩ ⟨2, ![E, C]⟩) = d
  -- axis 0 is named by the start index map, at position 0
  have hmem : (0 : Fin 2) ∈ d.startIndexMap := by subst hd; exact List.mem_singleton.mpr rfl
  -- the start-indices index read for that component is (e, 0)
  have hsi : d.siIdx (ix2 e f) ⟨List.idxOf (0 : Fin 2) d.startIndexMap,
      List.idxOf_lt_length_iff.2 hmem⟩ = ix2 e 0 := by
    subst hd
    funext b; refine Fin.ext ?_
    match b with
    | ⟨0, _⟩ => rfl
    | ⟨1, _⟩ => rfl
  -- there is no batching axis
  have hob : ∀ a : Fin 2, a ∉ d.operandBatchingDims := by subst hd; exact fun _ => List.not_mem_nil
  -- axis 0: the start is the clamped edge word (size N, slice size 1); axis 1 is not in the start index map
  have hst0 : d.start (ix2 e f) idx 0 = min (idx (ix2 e 0)).toInt.toNat (N - 1) := by
    unfold GatherDims.start
    rw [dif_pos hmem, hsi]
    subst hd
    rfl
  have hst1 : d.start (ix2 e f) idx 1 = 0 := by
    unfold GatherDims.start
    rw [dif_neg]
    subst hd
    show (1 : Fin 2) ∉ [(0 : Fin 2)]
    decide
  -- axis 0 is collapsed: no offset; axis 1 is the one kept axis and reads the result's offset axis 1
  have hoff0 : d.offCoord (ix2 e f) 0 = 0 := by
    refine d.offCoord_eq_zero _ _ (fun h => ((d.mem_sKept _).mp h).1 ?_)
    subst hd
    exact List.mem_singleton.mpr rfl
  have hoff1 : d.offCoord (ix2 e f) 1 = f.val := by
    subst hd
    unfold GatherDims.offCoord
    rw [dif_pos]
    · rfl
    · show (1 : Fin 2) ∈ (List.finRange 2).filter (· ∉ [(0 : Fin 2)] ++ [])
      decide
  funext a
  refine Fin.ext ?_
  match a with
  | ⟨0, _⟩ =>
    show d.start (ix2 e f) idx 0 + d.batchCoord (ix2 e f) 0 + d.offCoord (ix2 e f) 0 = _
    rw [d.batchCoord_eq_zero _ _ (hob 0), hoff0, hst0]
    rfl
  | ⟨1, _⟩ =>
    show d.start (ix2 e f) idx 1 + d.batchCoord (ix2 e f) 1 + d.offCoord (ix2 e f) 1 = _
    rw [d.batchCoord_eq_zero _ _ (hob 1), hoff1, hst1]
    simp

/-- THE ROW GATHER READ AT `(e, f)`: the table at the clamped row and column `f`. -/
theorem gather_rows_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (f : Fin C) :
    Host.gather d x idx (ix2 e f) = x (ix2 ⟨min (idx (ix2 e 0)).toInt.toNat (N - 1), by omega⟩ f) := by
  unfold Host.gather
  rw [gather_rows_operandIdx hN d h1 h2 h3 h4 h5 h6 h7 idx e f]

end GatherRows

/-! ## Gather of the entries of a vector -/

section GatherEntries
variable {N E w : Nat}

/-- THE ENTRY GATHER'S OPERAND INDEX: result element `e` reads the vector at `idx[e, 0]`, read signed and clamped
    into `[0, N − 1]`. -/
theorem gather_entries_operandIdx (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![E, 1]⟩ w) (e : Fin E) :
    d.operandIdx (ix1 e) idx = ix1 ⟨min (idx (ix2 e 0)).toInt.toNat (N - 1), by omega⟩ := by
  obtain ⟨od, cd, ob, sb, sm, iv, ss, wf⟩ := d
  simp only at h1 h2 h3 h4 h5 h6 h7
  subst h1 h2 h3 h4 h5 h6 h7
  generalize hd : (⟨[], [0], [], [], [0], 1, ![1], wf⟩ : GatherDims ⟨1, ![N]⟩ ⟨2, ![E, 1]⟩ ⟨1, ![E]⟩) = d
  -- axis 0 is named by the start index map, at position 0
  have hmem : (0 : Fin 1) ∈ d.startIndexMap := by subst hd; exact List.mem_singleton.mpr rfl
  -- the start-indices index read for that component is (e, 0)
  have hsi : d.siIdx (ix1 e) ⟨List.idxOf (0 : Fin 1) d.startIndexMap,
      List.idxOf_lt_length_iff.2 hmem⟩ = ix2 e 0 := by
    subst hd
    funext b; refine Fin.ext ?_
    match b with
    | ⟨0, _⟩ => rfl
    | ⟨1, _⟩ => rfl
  -- no batching axis; the start is the clamped edge word (size N, slice size 1); axis 0 is collapsed: no offset
  have hob : (0 : Fin 1) ∉ d.operandBatchingDims := by subst hd; exact List.not_mem_nil
  have hst0 : d.start (ix1 e) idx 0 = min (idx (ix2 e 0)).toInt.toNat (N - 1) := by
    unfold GatherDims.start
    rw [dif_pos hmem, hsi]
    subst hd
    rfl
  have hoff0 : d.offCoord (ix1 e) 0 = 0 := by
    refine d.offCoord_eq_zero _ _ (fun h => ((d.mem_sKept _).mp h).1 ?_)
    subst hd
    exact List.mem_singleton.mpr rfl
  funext a
  obtain rfl : a = 0 := Subsingleton.elim _ _
  refine Fin.ext ?_
  show d.start (ix1 e) idx 0 + d.batchCoord (ix1 e) 0 + d.offCoord (ix1 e) 0 = _
  rw [d.batchCoord_eq_zero _ _ hob, hoff0, hst0]
  rfl

/-- THE ENTRY GATHER READ AT `e`: the vector at the clamped edge word. -/
theorem gather_entries_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  rw [gather_entries_operandIdx hN d h1 h2 h3 h4 h5 h6 h7 idx e]

end GatherEntries

end Cert.LibEdgeIndex
-- ==== Proof.EdgeOrder.lean ====
/-
  The sorted edge list is the edge list read through a bijection of the edges.

  The stable argsort of the destinations carries the positions 0 … E-1; entry e of its output is the word of σ(e), the
  position of the edge the sort puts at e. σ is a bijection of the E = 600000 edges. A position is far below 2^31, so
  as a Python-style index it is itself, and clamped into [0, E-1] it is itself: "sources[order]" and
  "destinations[order]" at e are the source and the destination of edge σ(e).
-/
import proofs.«176871_j11081015624123_2_alg».proof.Proof.KHostDefs
import proofs.«176871_j11081015624123_2_alg».proof.Proof.LibSortPerm
import proofs.«176871_j11081015624123_2_alg».proof.Proof.LibEdgeIndex
import Idealize.ShloMosaic.Lib.Pipeline.Value

noncomputable section

namespace Cert.KernelIdeal.HostSide

open Idealize.ShloMosaic Idealize.ShloMosaic.ValueIdx Cert.KernelIdeal Cert.KernelIdeal.Facts₀ Cert.LibSortPerm

variable [Cert.KernelIdeal.Facts₀]

/-- A position read as a Python-style index into the edges, word by word. -/
theorem wrapE_apply (o : IVec S600000 32) (i : S600000.Idx) : wrapE o i = pyIndex 600000#32 (o i) := rfl

/-- A node word read as a Python-style index into the nodes, word by word. -/
theorem wrapN_apply (s : IVec S600000 32) (i : S600000.Idx) : wrapN s i = pyIndex 100000#32 (s i) := rfl

/-- The position of the edge that the sort by destination puts at `e`. -/
def σ (x1 : IVec S2x600000 32) : Fin 600000 → Fin 600000 :=
  sortPerm comparator_i32_i32_d0 (dstW x1) (iotaInDim S600000 32 0)

/-- It is a bijection of the edges. -/
theorem σ_bijective (x1 : IVec S2x600000 32) : Function.Bijective (σ x1) := sortPerm_bijective _ _ _

/-- The sort's output at `e` is the word of `σ e`. -/
theorem order_apply (x1 : IVec S2x600000 32) (e : Fin 600000) : order x1 (ix1 e) = BitVec.ofNat 32 (σ x1 e).val :=
  argsort_apply comparator_i32_i32_d0 (dstW x1) e

/-- A column made of a length-E vector reads, at `(e, 0)`, the vector's entry `e`. -/
theorem column_apply (v : IVec S600000 32) (e : Fin 600000) :
    broadcastInDim S600000x1 ![0] bcast_S600000_S600000x1_0 v (ix2 e (0 : Fin 1)) = v (ix1 e) :=
  broadcastInDim_apply _ bcast_S600000_S600000x1_0 v (ix2 e (0 : Fin 1)) (ix1 e) (fun a => match a with
    | ⟨0, _⟩ => by show e.val = if (600000 : Nat) = 1 then 0 else e.val; rw [if_neg (by decide)])

/-- The index the re-reads use at `e`: the word of `σ e`. -/
theorem sortedIdx_apply (x1 : IVec S2x600000 32) (e : Fin 600000) :
    broadcastInDim S600000x1 ![0] bcast_S600000_S600000x1_0 (wrapE (order x1)) (ix2 e (0 : Fin 1))
      = BitVec.ofNat 32 (σ x1 e).val := by
  rw [column_apply, wrapE_apply, order_apply]
  exact pyIndex_ofNat _ _ (by have := (σ x1 e).isLt; omega)

/-- Reading a length-E vector at the sorted positions: entry `e` is the vector's entry `σ e`. -/
theorem reread_apply (v : IVec S600000 32) (x1 : IVec S2x600000 32) (e : Fin 600000) :
    Host.gather gather_S600000_S600000x1_S600000_n_0_n_n_0_1_1 v
      (broadcastInDim S600000x1 ![0] bcast_S600000_S600000x1_0 (wrapE (order x1))) (ix1 e) = v (ix1 (σ x1 e)) := by
  rw [Cert.LibEdgeIndex.gather_entries_apply (N := 600000) (E := 600000) (by decide) gather_S600000_S600000x1_S600000_n_0_n_n_0_1_1
    rfl rfl rfl rfl rfl rfl rfl v _ e]
  refine congrArg v (congrArg ix1 (Fin.ext ?_))
  show min (broadcastInDim S600000x1 ![0] bcast_S600000_S600000x1_0 (wrapE (order x1)) (ix2 e (0 : Fin 1))).toInt.toNat (600000 - 1) = (σ x1 e).val
  rw [sortedIdx_apply, toInt_ofNat_small _ (by have := (σ x1 e).isLt; omega)]
  have := (σ x1 e).isLt
  omega

/-- The sorted sources at `e`: the source of edge `σ e`. -/
theorem srcS_apply (x1 : IVec S2x600000 32) (e : Fin 600000) : srcS x1 (ix1 e) = srcW x1 (ix1 (σ x1 e)) :=
  reread_apply (srcW x1) x1 e

/-- The sorted destinations at `e`: the destination of edge `σ e`. -/
theorem dstS_apply (x1 : IVec S2x600000 32) (e : Fin 600000) : dstS x1 (ix1 e) = dstW x1 (ix1 (σ x1 e)) :=
  reread_apply (dstW x1) x1 e

/- From here on `σ` is used only through the facts above. -/
attribute [irreducible] σ

end Cert.KernelIdeal.HostSide

end
-- ==== Proof.LibEdgePerm.lean ====
/-
  SUMS OVER EDGES DO NOT DEPEND ON THE ORDER OF THE EDGE LIST.

  Setting. A graph has N nodes and E edges; an edge list is an integer array of shape [E, 1] whose word at (e, 0) names
  the node edge e arrives at. "Sum per-edge values into nodes" is the accumulating scatter: node n receives the sum of the
  values of the edges whose word, read signed, is n; an edge whose word names no node contributes nothing. At the ideal
  values (extended reals, exact addition) the result at an element is the operand's element plus the finite sum of the
  updates landing on it — a sum over a SET of update indices, with no order.

  * Scatter into rows. For an operand [N, C], updates [E, C] and dimension numbers update_window_dims = [1],
    inserted_window_dims = [0], scatter_dims_to_operand_dims = [0], index_vector_dim = 1, update (e, f) has start
    (word of e read signed, 0) and window coordinate (0, f) (`scatter_rows_start_window`). So where update (e, f) lands
    depends on the edge list only through the word of e: two edge lists that give e and e' the same word land (e, f) and
    (e', f) on the same element (`scatter_rows_resultIdx_congr`; `scatter_entries_resultIdx_congr` for an operand [N] with
    updates [E]).
  * Hence: if σ is a bijection of the edges, and one edge list and one family of updates are the other edge list and
    family read through σ (edge e of the first is edge σ e of the second), the two accumulating scatters into the same
    operand are equal (`hostScatterAdd_rows_perm`, `hostScatterAdd_entries_perm`): the sum over update indices is
    re-indexed along σ.

  Every statement is about ARBITRARY records of dimension numbers whose fields are given by equations; for a record
  written with literal fields each equation holds by `rfl`.
-/
import Idealize.ShloMosaic.Lib.ValueIdx
import Idealize.ShloMosaic.PureOps.Ideal
import proofs.«176871_j11081015624123_2_alg».proof.Proof.LibEdgeIndex

open Idealize.ShloMosaic Idealize.ShloMosaic.ValueIdx

namespace Cert.LibEdgePerm

/-! ## Where an update lands is a function of its start and window coordinates -/

/-- Two updates (of two scatters into one operand shape) whose starts and window coordinates agree on every axis land on
    the same element, or are both dropped. -/
theorem resultIdx?_congr {s si u : Shape} {w : Nat} (d d' : ScatterDims s si u) (j j' : u.Idx) (idx idx' : IVec si w)
    (hs : ∀ a, d.start j idx a = d'.start j' idx' a) (hw : ∀ a, d.window j a = d'.window j' a) :
    d.resultIdx? j idx = d'.resultIdx? j' idx' := by
  have hs' : d.start j idx = d'.start j' idx' := funext hs
  have hw' : d.window j = d'.window j' := funext hw
  unfold ScatterDims.resultIdx?
  simp only [hs', hw']

/-! ## Sums over a rank-1 index -/

/-- A rank-1 index is its one coordinate … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scatter into the rows of a table -/

section Rows
variable {N E C w : Nat}

/-- Update `(e, f)` of a row scatter: on axis 0 its start is the edge word `idx[e, 0]` read signed and its window
    coordinate 0 (axis 0 is an inserted window axis); on axis 1 its start is 0 (the index vector has one component, for
    axis 0) and its window coordinate is `f`. -/
theorem scatter_rows_start_window (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) :
    d.start (ix2 e f) idx 0 = (idx (ix2 e 0)).toInt ∧ d.start (ix2 e f) idx 1 = 0
      ∧ d.window (ix2 e f) 0 = 0 ∧ d.window (ix2 e f) 1 = f.val := by
  obtain ⟨uw, iw, sd, iv, wf⟩ := d
  simp only at h1 h2 h3 h4
  subst h1 h2 h3 h4
  generalize hd : (⟨[1], [0], [0], 1, wf⟩ : ScatterDims ⟨2, ![N, C]⟩ ⟨2, ![E, 1]⟩ ⟨2, ![E, C]⟩) = d
  -- axis 0 is named by the scatter-dims-to-operand-dims map, at position 0
  have hmem : (0 : Fin 2) ∈ d.scatterDimsToOperandDims := by subst hd; exact List.mem_singleton.mpr rfl
  -- the scatter-indices index read for that component is (e, 0)
  have hsi : d.siIdx (ix2 e f) ⟨List.idxOf (0 : Fin 2) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_, ?_, ?_⟩
  · unfold ScatterDims.start
    rw [dif_pos hmem, hsi]
  · unfold ScatterDims.start
    rw [dif_neg]
    subst hd
    show (1 : Fin 2) ∉ [(0 : Fin 2)]
    decide
  · -- the operand's kept axes are the axes of [N, C] outside [0]: axis 1 only
    unfold ScatterDims.window
    rw [dif_neg]
    subst hd
    show (0 : Fin 2) ∉ (List.finRange 2).filter (· ∉ [(0 : Fin 2)])
    decide
  · subst hd
    unfold ScatterDims.window
    rw [dif_pos]
    · rfl
    · show (1 : Fin 2) ∈ (List.finRange 2).filter (· ∉ [(0 : Fin 2)])
      decide

/-- Two edge lists that give `e` and `e'` the same word land updates `(e, f)` and `(e', f)` on the same element. -/
theorem scatter_rows_resultIdx_congr (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (idx idx' : IVec ⟨2, ![E, 1]⟩ w) (e e' : Fin E) (f : Fin C) (h : idx (ix2 e 0) = idx' (ix2 e' 0)) :
    d.resultIdx? (ix2 e f) idx = d'.resultIdx? (ix2 e' f) idx' := by
  obtain ⟨s0, s1, w0, w1⟩ := scatter_rows_start_window d h1 h2 h3 h4 idx e f
  obtain ⟨s0', s1', w0', w1'⟩ := scatter_rows_start_window d' h1' h2' h3' h4' idx' e' f
  refine resultIdx?_congr d d' _ _ _ _ (fun a => ?_) (fun a => ?_)
  · match a with
    | ⟨0, _⟩ => exact s0.trans ((congrArg BitVec.toInt h).trans s0'.symm)
    | ⟨1, _⟩ => exact s1.trans s1'.symm
  · match a with
    | ⟨0, _⟩ => exact w0.trans w0'.symm
    | ⟨1, _⟩ => exact w1.trans w1'.symm

/-- RELABELLING THE EDGES DOES NOT CHANGE THE ROW SUMS: if `σ` is a bijection of the edges and the first edge list and
    updates are the second read through `σ`, the two accumulating scatters into `z` are equal. -/
theorem hostScatterAdd_rows_perm (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (σ : Fin E → Fin E) (hσ : Function.Bijective σ)
    (z : (⟨2, ![N, C]⟩ : Shape).Idx → EReal) (idx idx' : IVec ⟨2, ![E, 1]⟩ w)
    (upd upd' : (⟨2, ![E, C]⟩ : Shape).Idx → EReal)
    (hi : ∀ e, idx (ix2 e 0) = idx' (ix2 (σ e) 0)) (hu : ∀ e f, upd (ix2 e f) = upd' (ix2 (σ e) f)) :
    Ideal.hostScatterAdd d z idx upd = Ideal.hostScatterAdd d' z idx' upd' := by
  funext i
  unfold Ideal.hostScatterAdd
  refine congrArg (z i + ·) ?_
  rw [Finset.sum_filter, Finset.sum_filter, sum_idx2, sum_idx2]
  refine Eq.trans ?_ (hσ.sum_comp _)
  refine Finset.sum_congr rfl fun e _ => ?_
  refine Finset.sum_congr rfl fun f _ => ?_
  rw [scatter_rows_resultIdx_congr d d' h1 h2 h3 h4 h1' h2' h3' h4' idx idx' e (σ e) f (hi e), hu e f]

end Rows

/-! ## Scatter into the entries of a vector -/

section Entries
variable {N E w : Nat}

/-- Two edge lists that give `e` and `e'` the same word land updates `e` and `e'` on the same entry. -/
theorem scatter_entries_resultIdx_congr (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (idx idx' : IVec ⟨2, ![E, 1]⟩ w) (e e' : Fin E) (h : idx (ix2 e 0) = idx' (ix2 e' 0)) :
    d.resultIdx? (ix1 e) idx = d'.resultIdx? (ix1 e') idx' := by
  obtain ⟨s0, w0⟩ := Cert.LibEdgeIndex.scatter_entries_start_window d h1 h2 h3 h4 idx e
  obtain ⟨s0', w0'⟩ := Cert.LibEdgeIndex.scatter_entries_start_window d' h1' h2' h3' h4' idx' e'
  refine resultIdx?_congr d d' _ _ _ _ (fun a => ?_) (fun a => ?_)
  · obtain rfl : a = 0 := Subsingleton.elim _ _
    exact s0.trans ((congrArg BitVec.toInt h).trans s0'.symm)
  · obtain rfl : a = 0 := Subsingleton.elim _ _
    exact w0.trans w0'.symm

/-- RELABELLING THE EDGES DOES NOT CHANGE THE ENTRY SUMS. -/
theorem hostScatterAdd_entries_perm (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (σ : Fin E → Fin E) (hσ : Function.Bijective σ)
    (z : (⟨1, ![N]⟩ : Shape).Idx → EReal) (idx idx' : IVec ⟨2, ![E, 1]⟩ w)
    (upd upd' : (⟨1, ![E]⟩ : Shape).Idx → EReal)
    (hi : ∀ e, idx (ix2 e 0) = idx' (ix2 (σ e) 0)) (hu : ∀ e, upd (ix1 e) = upd' (ix1 (σ e))) :
    Ideal.hostScatterAdd d z idx upd = Ideal.hostScatterAdd d' z idx' upd' := by
  funext i
  unfold Ideal.hostScatterAdd
  refine congrArg (z i + ·) ?_
  rw [Finset.sum_filter, Finset.sum_filter, sum_idx1, sum_idx1]
  refine Eq.trans ?_ (hσ.sum_comp _)
  refine Finset.sum_congr rfl fun e _ => ?_
  rw [scatter_entries_resultIdx_congr d d' h1 h2 h3 h4 h1' h2' h3' h4' idx idx' e (σ e) (hi e), hu e]

end Entries

end Cert.LibEdgePerm
-- ==== Proof.Bridge.lean ====
/-
  The kernel's program and the reference compute one function of the argument arrays.

  Both programs are two layers of "average the neighbours' features, apply two weight matrices and a bias". They differ
  in three ways, none of which changes a value at the ideal instance:

  * the kernel sorts the edge list by destination before it sums over edges. The sorted list is the list read through a
    bijection σ of the edges, and a sum over the edges arriving at a node is a sum over a set, so σ re-indexes it: the
    degrees, hence the reciprocal degrees, and both layers' neighbour sums are the reference's;
  * the kernel adds the bias last, the reference adds it between the two matrix products: (a + c) + b = (a + b) + c in
    the extended reals, where addition is commutative and associative;
  * the kernel stores the first layer's output in a narrower float format and works in blocks of 4000 rows: both are
    the identity on values here.
-/
import proofs.«176871_j11081015624123_2_alg».proof.Proof.RefLayers
import proofs.«176871_j11081015624123_2_alg».proof.Proof.KHostDefs
import proofs.«176871_j11081015624123_2_alg».proof.Proof.EdgeOrder
import proofs.«176871_j11081015624123_2_alg».proof.Proof.LibEdgePerm
import proofs.«176871_j11081015624123_2_alg».proof.Proof.LibEdgeIndex
import proofs.«176871_j11081015624123_2_alg».proof.Proof.LibRowOps
import proofs.«176871_j11081015624123_2_alg».proof.Proof.KBlocks0
import proofs.«176871_j11081015624123_2_alg».proof.Proof.KBlocks1
import Idealize.ShloMosaic.Lib.ValueLayout

set_option maxRecDepth 16384

noncomputable section

namespace Cert.Bridge

open Idealize.ShloMosaic Idealize.ShloMosaic.ValueIdx
open Cert.KernelIdeal.HostSide Cert.LibSortPerm Cert.LibEdgePerm Cert.LibEdgeIndex
open Cert.ReferenceIdeal.Read Cert.ReferenceIdeal.Layers

variable (x0 : FVec Ideal Cert.KernelIdeal.S100000x128 .f32) (x1 : IVec Cert.KernelIdeal.S2x600000 32)
  (x2 : FVec Ideal Cert.KernelIdeal.S128x128 .f32) (x3 : FVec Ideal Cert.KernelIdeal.S128 .f32)
  (x4 : FVec Ideal Cert.KernelIdeal.S128x128 .f32) (x5 : FVec Ideal Cert.KernelIdeal.S128x32 .f32)
  (x6 : FVec Ideal Cert.KernelIdeal.S32 .f32) (x7 : FVec Ideal Cert.KernelIdeal.S128x32 .f32)

/-! ## The edge list's two rows -/

theorem src_eq : val_main_v1 (F := Ideal) x1 = srcW x1 := rfl
theorem dst_eq : val_main_v3 (F := Ideal) x1 = dstW x1 := rfl

/-- The reference's destination column at `(e, 0)`. -/
theorem refDst_apply (idxR : IVec Cert.KernelIdeal.S600000x1 32)
    (h : idxR = broadcastInDim Cert.KernelIdeal.S600000x1 ![0] Cert.KernelIdeal.Facts₀.bcast_S600000_S600000x1_0 (dstW x1))
    (e : Fin 600000) : idxR (ix2 e (0 : Fin 1)) = dstW x1 (ix1 e) := by
  subst h; exact column_apply (dstW x1) e

/-- The kernel's destination column at `(e, 0)` is the reference's at `(σ e, 0)`. -/
theorem dstCol (idxR : IVec Cert.KernelIdeal.S600000x1 32)
    (h : idxR = broadcastInDim Cert.KernelIdeal.S600000x1 ![0] Cert.KernelIdeal.Facts₀.bcast_S600000_S600000x1_0 (dstW x1))
    (e : Fin 600000) :
    broadcastInDim Cert.KernelIdeal.S600000x1 ![0] Cert.KernelIdeal.Facts₀.bcast_S600000_S600000x1_0 (dstS x1) (ix2 e (0 : Fin 1))
      = idxR (ix2 (σ x1 e) (0 : Fin 1)) :=
  ((column_apply (dstS x1) e).trans (dstS_apply x1 e)).trans (refDst_apply x1 idxR h (σ x1 e)).symm

/-! ## The degrees -/

/-- The number of edges arriving at each node does not depend on the order of the edge list. -/
theorem deg_eq : deg (F := Ideal) x1 = val_main_v7 (F := Ideal) x1 := by
  unfold deg val_main_v7
  refine hostScatterAdd_entries_perm (N := 100000) (E := 600000)
    Cert.KernelIdeal.scatter_S100000_S600000x1_S600000_n_0_0_1 Cert.ReferenceIdeal.scatter_S100000_S600000x1_S600000_n_0_0_1
    rfl rfl rfl rfl rfl rfl rfl rfl (σ x1) (σ_bijective x1) _ _ (val_main_v6 (F := Ideal) x1) _ (val_main_v4 (F := Ideal)) ?_ ?_
  · exact dstCol x1 _ rfl
  · -- every update is the constant 1, on both sides
    have hK : broadcastInDim Cert.KernelIdeal.S600000 ![] Cert.KernelIdeal.Facts₀.bcast_S_S600000 (constant (F := Ideal) Cert.KernelIdeal.S_ .f32 0x3F800000#32)
        = fun _ => Ideal.ofBits .f32 0x3F800000#32 := rfl
    have hR : val_main_v4 (F := Ideal) = fun _ => Ideal.ofBits .f32 0x3F800000#32 := rfl
    intro e
    exact (congrFun hK (ix1 e)).trans (congrFun hR (ix1 (σ x1 e))).symm

/-- The reciprocal degree of node `n`. -/
theorem inv_apply (n : Fin 100000) : Cert.KernelIdeal.HostSide.inv (F := Ideal) x1 (ix2 n (0 : Fin 1)) = val_main_v11 (F := Ideal) x1 (ix1 n) := by
  unfold Cert.KernelIdeal.HostSide.inv
  rw [Cert.LibRowOps.shapeCast_a_a1_apply, deg_eq]
  rfl

/-! ## The neighbour sums -/

/-- Two row gathers from one table whose index columns give `e` and `e'` the same word read the same row. -/
theorem gather_rows_congr {N E C w : Nat} (hN : 0 < N) (g g' : GatherDims ⟨2, ![N, C]⟩ ⟨2, ![E, 1]⟩ ⟨2, ![E, C]⟩)
    (h1 : g.offsetDims = [1]) (h2 : g.collapsedSliceDims = [0]) (h3 : g.operandBatchingDims = [])
    (h4 : g.startIndicesBatchingDims = []) (h5 : g.startIndexMap = [0]) (h6 : g.indexVectorDim = 1) (h7 : g.sliceSizes = ![1, C])
    (h1' : g'.offsetDims = [1]) (h2' : g'.collapsedSliceDims = [0]) (h3' : g'.operandBatchingDims = [])
    (h4' : g'.startIndicesBatchingDims = []) (h5' : g'.startIndexMap = [0]) (h6' : g'.indexVectorDim = 1) (h7' : g'.sliceSizes = ![1, C])
    (T : (⟨2, ![N, C]⟩ : Shape).Idx → EReal) (idx idx' : IVec ⟨2, ![E, 1]⟩ w) (e e' : Fin E) (f : Fin C)
    (hw : idx (ix2 e 0) = idx' (ix2 e' 0)) :
    Host.gather g T idx (ix2 e f) = Host.gather g' T idx' (ix2 e' f) :=
  (gather_rows_apply hN g h1 h2 h3 h4 h5 h6 h7 T idx e f).trans
    ((congrArg (fun v : BitVec w => T (ix2 (⟨min v.toInt.toNat (N - 1), by omega⟩ : Fin N) f)) hw).trans
      (gather_rows_apply hN g' h1' h2' h3' h4' h5' h6' h7' T idx' e' f).symm)

/-- THE NEIGHBOUR SUMS DO NOT DEPEND ON THE ORDER OF THE EDGE LIST: summing, for every node, the rows of a table `T` at
    the sources of the edges arriving at it gives the same array from the sorted edge list and from the edge list as
    given (destination column `idxR`, source column `gidxR` already read as Python-style indices). -/
theorem neighbour_sums_eq (T : (⟨2, ![100000, 128]⟩ : Shape).Idx → EReal) (updK : FVec Ideal Cert.KernelIdeal.S600000x128 .f32)
    (hupd : ∀ e f, updK (ix2 e f) = Host.gather Cert.KernelIdeal.gather_S100000x128_S600000x1_S600000x128_1_0_n_n_0_1_1128 T
      (broadcastInDim Cert.KernelIdeal.S600000x1 ![0] Cert.KernelIdeal.Facts₀.bcast_S600000_S600000x1_0 (wrapN (srcS x1))) (ix2 e f))
    (idxR gidxR : IVec Cert.KernelIdeal.S600000x1 32)
    (hidx : idxR = broadcastInDim Cert.KernelIdeal.S600000x1 ![0] Cert.KernelIdeal.Facts₀.bcast_S600000_S600000x1_0 (dstW x1))
    (hg : ∀ e', gidxR (ix2 e' (0 : Fin 1)) = pyIndex 100000#32 (srcW x1 (ix1 e'))) :
    sumInto (F := Ideal) updK x1
      = Ideal.hostScatterAdd Cert.ReferenceIdeal.scatter_S100000x128_S600000x1_S600000x128_1_0_0_1
          (broadcastInDim Cert.KernelIdeal.S100000x128 ![] Cert.KernelIdeal.Facts₀.bcast_S_S100000x128 (constant (F := Ideal) Cert.KernelIdeal.S_ .f32 0x00000000#32))
          idxR (Host.gather Cert.ReferenceIdeal.gather_S100000x128_S600000x1_S600000x128_1_0_n_n_0_1_1128 T gidxR) := by
  unfold sumInto
  refine hostScatterAdd_rows_perm (N := 100000) (E := 600000) (C := 128) _ _ rfl rfl rfl rfl rfl rfl rfl rfl (σ x1) (σ_bijective x1) _ _ _ _ _
    (dstCol x1 idxR hidx) (fun e f => ?_)
  rw [hupd e f]
  refine gather_rows_congr (by decide) _ _ rfl rfl rfl rfl rfl rfl rfl rfl rfl rfl rfl rfl rfl rfl T _ _ e (σ x1 e) f ?_
  rw [column_apply, wrapN_apply, srcS_apply, hg]

/-- The first layer's neighbour sums. -/
theorem agg1_eq : agg1 (F := Ideal) x0 x1 = val_main_v21 (F := Ideal) x0 x1 := by
  unfold agg1 val_main_v21 val_main_v18
  exact neighbour_sums_eq x1 x0 (rowsOf x0 x1) (fun _ _ => rfl) (val_main_v20 (F := Ideal) x1) (val_main_v17 (F := Ideal) x1) rfl
    (fun e' => (column_apply (val_main_v16 (F := Ideal) x1) e').trans rfl)

/-- The second layer's neighbour sums, of any table that is the reference's first-layer output. -/
theorem agg2_eq (H : FVec Ideal Cert.KernelIdeal.S100000x128 .bf16)
    (hH : (H : (⟨2, ![100000, 128]⟩ : Shape).Idx → EReal) = val_main_v31 (F := Ideal) x0 x1 x2 x3 x4) :
    agg2 (F := Ideal) H x1 = val_main_v41 (F := Ideal) x0 x1 x2 x3 x4 := by
  unfold agg2 val_main_v41 val_main_v38
  rw [← hH]
  exact neighbour_sums_eq x1 H _ (fun _ _ => rfl) (val_main_v40 (F := Ideal) x1) (val_main_v37 (F := Ideal) x1) rfl
    (fun e' => (column_apply (val_main_v36 (F := Ideal) x1) e').trans rfl)

/-! ## The layers -/

/-- THE FIRST LAYER: the kernel's formula on the kernel's arrays is the reference's first-layer output. -/
theorem layer1_eq (hc : Cert.KernelIdeal.S128.ShapeCasts Cert.KernelIdeal.S1x128) :
    Cert.KernelIdeal.Blocks0.layer (agg1 (F := Ideal) x0 x1) x0 (Cert.KernelIdeal.HostSide.inv (F := Ideal) x1) x2 x4 (shapeCast Cert.KernelIdeal.S1x128 x3 hc)
      = val_main_v31 (F := Ideal) x0 x1 x2 x3 x4 := by
  funext i
  obtain ⟨n, j, rfl⟩ : ∃ (n : Fin 100000) (j : Fin 128), i = ix2 n j := ⟨i 0, i 1, eq_ix2 i⟩
  rw [layer1_apply, ← agg1_eq, ← inv_apply]
  show max (((∑ k : Fin 128, (agg1 (F := Ideal) x0 x1 (ix2 n k) * Cert.KernelIdeal.HostSide.inv (F := Ideal) x1 (ix2 n (0 : Fin 1))) * x2 (ix2 k j))
      + ∑ k : Fin 128, x0 (ix2 n k) * x4 (ix2 k j)) + shapeCast Cert.KernelIdeal.S1x128 x3 hc (ix2 (0 : Fin 1) j)) _ = _
  rw [shapeCast_a_1a_apply, add_right_comm]

/-- THE SECOND LAYER: the kernel's formula on the kernel's arrays is the reference's result. -/
theorem layer2_eq (H : FVec Ideal Cert.KernelIdeal.S100000x128 .bf16)
    (hH : (H : (⟨2, ![100000, 128]⟩ : Shape).Idx → EReal) = val_main_v31 (F := Ideal) x0 x1 x2 x3 x4)
    (hc : Cert.KernelIdeal.S32.ShapeCasts Cert.KernelIdeal.S1x32) :
    Cert.KernelIdeal.Blocks1.layer (agg2 (F := Ideal) H x1) H (Cert.KernelIdeal.HostSide.inv (F := Ideal) x1) x5 x7 (shapeCast Cert.KernelIdeal.S1x32 x6 hc)
      = val_main_v50 (F := Ideal) x0 x1 x2 x3 x4 x5 x6 x7 := by
  funext i
  obtain ⟨n, j, rfl⟩ : ∃ (n : Fin 100000) (j : Fin 32), i = ix2 n j := ⟨i 0, i 1, eq_ix2 i⟩
  rw [layer2_apply, ← agg2_eq x0 x1 x2 x3 x4 H hH, ← inv_apply, ← hH]
  show ((∑ k : Fin 128, (agg2 (F := Ideal) H x1 (ix2 n k) * Cert.KernelIdeal.HostSide.inv (F := Ideal) x1 (ix2 n (0 : Fin 1))) * x5 (ix2 k j))
      + ∑ k : Fin 128, H (ix2 n k) * x7 (ix2 k j)) + shapeCast Cert.KernelIdeal.S1x32 x6 hc (ix2 (0 : Fin 1) j) = _
  rw [shapeCast_a_1a_apply, add_right_comm]

end Cert.Bridge

end
-- ==== Proof.KValue.lean ====
/-
  The kernel's result array, as a function of the argument arrays: the reference's function.

  The result array ends at what the second launch's write-backs leave in it: the second layer's formula on the arrays
  that launch finds. Those are the neighbour sums of the first launch's output, that output itself, the reciprocal
  degrees, two weight matrices and a bias row; and the first launch's output is the first layer's formula on the
  neighbour sums of the input features, the features, the reciprocal degrees, two weight matrices and a bias row.
  Layer by layer these are the reference's values.
-/
import proofs.«176871_j11081015624123_2_alg».proof.Proof.KRun
import proofs.«176871_j11081015624123_2_alg».proof.Proof.KHost
import proofs.«176871_j11081015624123_2_alg».proof.Proof.KBlocks0
import proofs.«176871_j11081015624123_2_alg».proof.Proof.KBlocks1
import proofs.«176871_j11081015624123_2_alg».proof.Proof.Bridge

set_option maxRecDepth 16384

noncomputable section

namespace Cert.KernelIdeal.Value

open Idealize.ShloMosaic Idealize.ShloMosaic.TcCoe Idealize.SL.Sem
open Cert.KernelIdeal Cert.KernelIdeal.Gen Cert.KernelIdeal.HostSide Cert.KernelIdeal.Facts₀
open Cert.ReferenceIdeal.Read

variable (m : (ℓ : Loc nD τ sig) → Buf (Elt Ideal) ℓ) (ρ : Dev nD → PrngReg)

/-- The reference's first-layer output on the kernel's argument arrays. -/
abbrev refH (c : Dev nD) : S100000x128.Idx → EReal :=
  val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's result on the kernel's argument arrays. -/
abbrev refOut (c : Dev nD) : S100000x32.Idx → EReal :=
  val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- THE FIRST LAUNCH'S OUTPUT ARRAY is the reference's first-layer output. -/
theorem h1_eq (c : Dev nD) : ((dat0 (V3 m ρ) c).arrAt 6 cfg0.N : S100000x128.Idx → EReal) = refH m c := by
  have eA : Blocks0.arrA (V3 m ρ) c = agg1 (F := Ideal) (m ((c : Thread nD τ).loc main_arg0)) (m ((c : Thread nD τ).loc main_arg1)) := W3_v37 m ρ c
  have eH : Blocks0.arrH (V3 m ρ) c = m ((c : Thread nD τ).loc main_arg0) := W3_arg m ρ c main_arg0 (Or.inl rfl)
  have eD : Blocks0.arrD (V3 m ρ) c = inv (F := Ideal) (m ((c : Thread nD τ).loc main_arg1)) := W3_v27 m ρ c
  have eWl : Blocks0.arrWl (V3 m ρ) c = m ((c : Thread nD τ).loc main_arg2) := W3_arg m ρ c main_arg2 (Or.inr (Or.inl rfl))
  have eWr : Blocks0.arrWr (V3 m ρ) c = m ((c : Thread nD τ).loc main_arg4) := W3_arg m ρ c main_arg4 (Or.inr (Or.inr (Or.inr (Or.inl rfl))))
  have eB : Blocks0.arrB (V3 m ρ) c = shapeCast S1x128 (m ((c : Thread nD τ).loc main_arg3)) Facts₀.shapeCasts_S128_S1x128 := W3_v38 m ρ c
  refine (Blocks0.final (V3 m ρ) c).trans ?_
  rw [eA, eH, eD, eWl, eWr, eB]
  exact Cert.Bridge.layer1_eq _ _ _ _ _ _

/-- THE RESULT ARRAY is the reference's result. -/
theorem out_value (c : Dev nD) : (W6 m ρ c (Proc.devRef .tc main_v52) : S100000x32.Idx → EReal) = refOut m c := by
  have hH := h1_eq m ρ c
  have eA : Blocks1.arrA (V5 m ρ) c = agg2 (F := Ideal) ((dat0 (V3 m ρ) c).arrAt 6 cfg0.N) (m ((c : Thread nD τ).loc main_arg1)) := W5_v50 m ρ c
  have eH : Blocks1.arrH (V5 m ρ) c = (dat0 (V3 m ρ) c).arrAt 6 cfg0.N := W5_v39 m ρ c
  have eD : Blocks1.arrD (V5 m ρ) c = inv (F := Ideal) (m ((c : Thread nD τ).loc main_arg1)) := W5_v27 m ρ c
  have eWl : Blocks1.arrWl (V5 m ρ) c = m ((c : Thread nD τ).loc main_arg5) := W5_arg m ρ c main_arg5 (Or.inl rfl)
  have eWr : Blocks1.arrWr (V5 m ρ) c = m ((c : Thread nD τ).loc main_arg7) := W5_arg m ρ c main_arg7 (Or.inr rfl)
  have eB : Blocks1.arrB (V5 m ρ) c = shapeCast S1x32 (m ((c : Thread nD τ).loc main_arg6)) Facts₀.shapeCasts_S32_S1x32 := W5_v51 m ρ c
  refine (out_eq m ρ c).trans ((Blocks1.final (V5 m ρ) c).trans ?_)
  rw [eA, eH, eD, eWl, eWr, eB]
  exact Cert.Bridge.layer2_eq _ _ _ _ _ _ _ _ _ hH _

/-- The kernel's program runs, ends with its result array at the reference's function of the argument arrays, and leaves
    the arguments as launched. -/
theorem run : θ_run defs (onTc (τ := τ) (main (F := Ideal))) ⟨m, fun _ => 0, ρ⟩ (fun r => ∀ c : Dev nD,
      r.2.mem ((c.tc : Thread nD τ).loc main_v52) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_value m ρ c), (h c).2⟩) (run_out m ρ)

end Cert.KernelIdeal.Value

end
-- ==== Proof.lean ====
/-
  The certificate: a two-layer neighbour-averaging network (N = 100000 nodes, E = 600000 edges), the kernel's program
  against its reference, over the extended reals.

  * The three frames. The two kernel programs' frames are the generated ones. The reference launches nothing: its frame is
    its generated run with the result dropped.
  * The idealized kernel program is the program's own text read at the ideal instance: nothing to preserve.
  * Equal results. The kernel's result array ends at the reference's function of the argument arrays (Proof/KValue.lean:
    each launch's output is its layer's formula on the whole arrays; the sorted edge list is the edge list read through
    a bijection of the edges, so every sum over the edges arriving at a node is the reference's; the bias is added in
    another place of a sum of three terms), and the reference's result is that function by its generated run.
-/
import proofs.«176871_j11081015624123_2_alg».proof.Defs
import proofs.«176871_j11081015624123_2_alg».proof.Proof.Gen.Kernel
import proofs.«176871_j11081015624123_2_alg».proof.Proof.Gen.Kernel.Skeleton
import proofs.«176871_j11081015624123_2_alg».proof.Proof.Gen.Kernel.Launch
import proofs.«176871_j11081015624123_2_alg».proof.Proof.Gen.Kernel.Points
import proofs.«176871_j11081015624123_2_alg».proof.Proof.Gen.Kernel.Frame
import proofs.«176871_j11081015624123_2_alg».proof.Proof.Gen.KernelIdeal
import proofs.«176871_j11081015624123_2_alg».proof.Proof.Gen.KernelIdeal.Skeleton
import proofs.«176871_j11081015624123_2_alg».proof.Proof.Gen.KernelIdeal.Launch
import proofs.«176871_j11081015624123_2_alg».proof.Proof.Gen.KernelIdeal.Points
import proofs.«176871_j11081015624123_2_alg».proof.Proof.Gen.KernelIdeal.Frame
import proofs.«176871_j11081015624123_2_alg».proof.Proof.Gen.ReferenceIdeal
import proofs.«176871_j11081015624123_2_alg».proof.Proof.Gen.ReferenceIdeal.Run
import proofs.«176871_j11081015624123_2_alg».proof.Proof.Gen.ReferenceIdeal.Read
import proofs.«176871_j11081015624123_2_alg».proof.Proof.Gen.Pre_finite_inputs
import proofs.«176871_j11081015624123_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result arrays at one function of the argument arrays: the reference's, read on the
    kernel's arguments, which the reference's own arguments agree with. -/
theorem algebraic : Cert.algebraic_KernelIdeal_ReferenceIdeal := by
  intro m ρ m' ρ' _ hagree
  refine ⟨fun c => Cert.KernelIdeal.Value.refOut m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
